-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64 .f32) (main_arg5 : FVec F S64x16 .f32) (main_arg6 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg5
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64x16 .f32) (main_arg6 : FVec F S16 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x64 : Shape := ⟨2, ![1, 64]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 78
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x16, .f32⟩
  | .hbm, ⟨77, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S128x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .f32⟩
  | .local _ .vmem, ⟨23, _⟩ => ⟨S2000x1, .f32⟩
  | .local _ .vmem, ⟨24, _⟩ => ⟨S2000x1, .f32⟩
  | .local _ .vmem, ⟨25, _⟩ => ⟨S2000x1, .f32⟩
  | .local _ .vmem, ⟨26, _⟩ => ⟨S64x16, .f32⟩
  | .local _ .vmem, ⟨27, _⟩ => ⟨S1x16, .f32⟩
  | .local _ .vmem, ⟨28, _⟩ => ⟨S2000x16, .f32⟩
  | .local _ .vmem, ⟨29, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x16.size a ≤ S100000x16.size a
  hwx2_5 : ∀ i : grid2.Coords, EltTy.bits .f32 = 32 ∨ (Rect.block (s := S100000x16) S2000x16.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S2000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S100000x16 : Shape := ⟨2, ![100000, 16]⟩
abbrev S1x16 : Shape := ⟨2, ![1, 16]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S_, .f32⟩
  | .hbm, ⟨94, _⟩ => ⟨S100000x64, .f32⟩
  | .hbm, ⟨95, _⟩ => ⟨S1600000x1, .i32⟩
  | .hbm, ⟨96, _⟩ => ⟨S100000x64, .f32⟩
  | .hbm, ⟨97, _⟩ => ⟨S100000x1, .f32⟩
  | .hbm, ⟨98, _⟩ => ⟨S100000x64, .f32⟩
  | .hbm, ⟨99, _⟩ => ⟨S100000x64, .f32⟩
  | .hbm, ⟨100, _⟩ => ⟨S100000x16, .f32⟩
  | .hbm, ⟨101, _⟩ => ⟨S1x16, .f32⟩
  | .hbm, ⟨102, _⟩ => ⟨S100000x16, .f32⟩
  | .hbm, ⟨103, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel's run, with its result named.

  The program is three launches of one dense-layer body among stretches of host operations. Its run ends with
  every unscoped buffer at the contents obtained by folding the host stretches and the three launches'
  write-backs from the launch memory; here that fact is kept for the result buffer (the third launch's output
  array), beside the unchanged arguments.
-/
import proofs.«151268_j66443144069641_1_alg».proof.Proof.Gen.KernelIdeal.Frame

set_option maxRecDepth 16384

noncomputable section

namespace Cert.KernelIdeal.LayerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, faultless, with the result buffer at the last boundary's contents
    and the nine arguments as launched. -/
theorem run_result : θ_run defs (onTc (τ := τ) (main (F := F))) ⟨m, fun _ => 0, ρ⟩ (fun r => ∀ c : Dev nD,
      r.2.mem ((c.tc : Thread nD τ).loc main_v50) = W10 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v50 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.LayerRun

end
-- ==== Proof.HostTerms.lean ====
/-
  The host-side values both programs share, named.

  Around the dense layers the kernel's program and the reference run the same host operations: count each node's
  degree by scatter-adding ones along an index vector, clamp the count below at one and take the inverse square root
  (the node's norm), gather the rows of a feature array along the edges' sources (negative indices wrapped by the
  node count) and scatter-add them to the edges' targets. These are those operations as functions of the argument
  arrays, spelt with the kernel program's own shape records.
-/
import proofs.«151268_j66443144069641_1_alg».proof.Proof.Gen.KernelIdeal

noncomputable section

namespace Cert.KernelIdeal.HostTerms

open Cert.KernelIdeal Cert.KernelIdeal.Gen Idealize.ShloMosaic

variable {F : FTy → Type} [FloatOps F]

/-- The number of edges ending (for `dst`) or starting (for `src`) at each node: ones scatter-added along the
    index vector. -/
def degree (x : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 x)
    (broadcastInDim S1600000 ![] bcast_S_S1600000 (constant S_ .f32 0x3F800000#32))

/-- A node's norm: the inverse square root of its degree clamped below at one. -/
def norm (x : (⟨S1600000, .i32⟩ : BufTy).Contents (Elt F)) : (⟨S100000, .f32⟩ : BufTy).Contents (Elt F) :=
  Host.rsqrt (maximumf (broadcastInDim S100000 ![] bcast_S_S100000 (id (constant S_ .f32 0x3F800000#32))) (degree x))

/-- The norms as a column [100000, 1], by reshape. -/
def normCol (x : (⟨S1600000, .i32⟩ : BufTy).Contents (Elt F)) : (⟨S100000x1, .f32⟩ : BufTy).Contents (Elt F) :=
  shapeCast S100000x1 (norm x) shapeCasts_S100000_S100000x1

/-- The edges' sources as gather indices: a negative index wrapped by the node count, as a column. -/
def srcIdx (x7 : (⟨S1600000, .i32⟩ : BufTy).Contents (Elt F)) : (⟨S1600000x1, .i32⟩ : BufTy).Contents (Elt F) :=
  broadcastInDim S1600000x1 ![0] bcast_S1600000_S1600000x1_0
    (select (cmpi .slt x7 (broadcastInDim S1600000 ![] bcast_S_S1600000 (constantI S_ 32 0#32)))
      (addi x7 (broadcastInDim S1600000 ![] bcast_S_S1600000 (constantI S_ 32 100000#32))) x7)

/-- Neighbourhood sums of 128-feature rows: gather along the sources, scatter-add to the targets. -/
def edgeSum128 (h : (⟨S100000x128, .f32⟩ : BufTy).Contents (Elt F)) (x7 x8 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x8)
    (Host.gather gather_S100000x128_S1600000x1_S1600000x128_1_0_n_n_0_1_1128 h (srcIdx x7))

/-- Neighbourhood sums of 64-feature rows. -/
def edgeSum64 (h : (⟨S100000x64, .f32⟩ : BufTy).Contents (Elt F)) (x7 x8 : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 x8)
    (Host.gather gather_S100000x64_S1600000x1_S1600000x64_1_0_n_n_0_1_164 h (srcIdx x7))

/-- The input features scaled row by row by the out-degree norm. -/
def scaled (x0 : (⟨S100000x128, .f32⟩ : BufTy).Contents (Elt F)) (x7 : (⟨S1600000, .i32⟩ : BufTy).Contents (Elt F)) :
    (⟨S100000x128, .f32⟩ : BufTy).Contents (Elt F) :=
  mulf x0 (broadcastInDim S100000x128 ![0, 1] bcast_S100000x1_S100000x128_0_1 (normCol x7))

/-- A 64-entry bias as a row [1, 64], by reshape. -/
def biasRow64 (b : (⟨S64, .f32⟩ : BufTy).Contents (Elt F)) : (⟨S1x64, .f32⟩ : BufTy).Contents (Elt F) :=
  shapeCast S1x64 b shapeCasts_S64_S1x64

/-- A 16-entry bias as a row [1, 16], by reshape. -/
def biasRow16 (b : (⟨S16, .f32⟩ : BufTy).Contents (Elt F)) : (⟨S1x16, .f32⟩ : BufTy).Contents (Elt F) :=
  shapeCast S1x16 b shapeCasts_S16_S1x16

end Cert.KernelIdeal.HostTerms

end
-- ==== Proof.Casts.lean ====
/-
  Two ways of adding a unit axis to a vector that read the same entries.

  The kernel's host code reshapes the per-node norm vectors to columns and the bias vectors to rows; the reference
  broadcasts them into the same shapes. A reshape of [n] to [n, 1] reads entry r at (r, 0), and so does the
  broadcast along axis 0; likewise [n] to [1, n] and the broadcast along axis 1.
-/
import proofs.«151268_j66443144069641_1_alg».proof.KernelIdeal
import Idealize.ShloMosaic.Lib.ValueIdx
import Idealize.ShloMosaic.Lib.Pipeline.Value

noncomputable section
namespace Cert.KernelIdeal.Casts
open Cert.KernelIdeal Idealize.ShloMosaic Idealize.ShloMosaic.ValueIdx

/-- Reshaping a vector of 100000 entries to a column [100000, 1] is broadcasting it along axis 0 of that column:
    both read entry r at (r, 0). -/
theorem col_eq {α : Type} (v : S100000.Idx → α) (h : S100000.ShapeCasts S100000x1)
    (h' : S100000.BroadcastsInDim S100000x1 ![0]) :
    shapeCast S100000x1 v h = broadcastInDim S100000x1 ![0] h' v := by
  funext i
  obtain ⟨r, z, rfl⟩ : ∃ (r : Fin 100000) (z : Fin 1), i = ix2 r z := ⟨i 0, i 1, eq_ix2 i⟩
  have hz : z.val < 1 := z.isLt
  rw [shapeCast_apply v h (ix2 r z) (ix1 r) (by
      rw [Shape.rowMajor_val_one, Shape.rowMajor_val_two]
      show r.val = r.val * 1 + z.val
      omega),
    broadcastInDim_apply ![0] h' v (ix2 r z) (ix1 r) (fun a => match a with
      | ⟨0, _⟩ => by show r.val = if (100000 : Nat) = 1 then 0 else r.val; rw [if_neg (by decide)])]

/-- Reshaping a vector of 64 entries to a row [1, 64] is broadcasting it along axis 1 of that row. -/
theorem row64_eq {α : Type} (v : S64.Idx → α) (h : S64.ShapeCasts S1x64) (h' : S64.BroadcastsInDim S1x64 ![1]) :
    shapeCast S1x64 v h = broadcastInDim S1x64 ![1] h' v := by
  funext i
  obtain ⟨z, q, rfl⟩ : ∃ (z : Fin 1) (q : Fin 64), i = ix2 z q := ⟨i 0, i 1, eq_ix2 i⟩
  have hz : z.val < 1 := z.isLt
  rw [shapeCast_apply v h (ix2 z q) (ix1 q) (by
      rw [Shape.rowMajor_val_one, Shape.rowMajor_val_two]
      show q.val = z.val * 64 + q.val
      omega),
    broadcastInDim_apply ![1] h' v (ix2 z q) (ix1 q) (fun a => match a with
      | ⟨0, _⟩ => by show q.val = if (64 : Nat) = 1 then 0 else q.val; rw [if_neg (by decide)])]

/-- Reshaping a vector of 16 entries to a row [1, 16] is broadcasting it along axis 1 of that row. -/
theorem row16_eq {α : Type} (v : S16.Idx → α) (h : S16.ShapeCasts S1x16) (h' : S16.BroadcastsInDim S1x16 ![1]) :
    shapeCast S1x16 v h = broadcastInDim S1x16 ![1] h' v := by
  funext i
  obtain ⟨z, q, rfl⟩ : ∃ (z : Fin 1) (q : Fin 16), i = ix2 z q := ⟨i 0, i 1, eq_ix2 i⟩
  have hz : z.val < 1 := z.isLt
  rw [shapeCast_apply v h (ix2 z q) (ix1 q) (by
      rw [Shape.rowMajor_val_one, Shape.rowMajor_val_two]
      show q.val = z.val * 16 + q.val
      omega),
    broadcastInDim_apply ![1] h' v (ix2 z q) (ix1 q) (fun a => match a with
      | ⟨0, _⟩ => by show q.val = if (16 : Nat) = 1 then 0 else q.val; rw [if_neg (by decide)])]

end Cert.KernelIdeal.Casts
end
-- ==== Proof.HostTermsRef.lean ====
/-
  The shared host-side values are the reference's.

  The reference names every operation's value as a function of the arguments. Its degree counts, norms, gathers and
  scatter-adds are the same operations on the same operands as the kernel program's; the one difference in spelling
  is how a unit axis is added to the norms and the biases (the kernel reshapes, the reference broadcasts), and the two
  read the same entries.
-/
import proofs.«151268_j66443144069641_1_alg».proof.Proof.Gen.ReferenceIdeal.Read
import proofs.«151268_j66443144069641_1_alg».proof.Proof.HostTerms
import proofs.«151268_j66443144069641_1_alg».proof.Proof.Casts

noncomputable section

namespace Cert.KernelIdeal.HostTermsRef

open Cert.KernelIdeal Cert.KernelIdeal.HostTerms Cert.ReferenceIdeal.Read Idealize.ShloMosaic

variable (x0 : S100000x128.Idx → EReal) (x1 : S128x64.Idx → EReal) (x2 : S64.Idx → EReal) (x3 : S64x64.Idx → EReal)
  (x4 : S64.Idx → EReal) (x5 : S64x16.Idx → EReal) (x6 : S16.Idx → EReal) (x7 x8 : S1600000.Idx → BitVec 32)

/-- The norm column of the edges' sources is the reference's out-degree norm column. -/
theorem out_col : normCol (F := Ideal) x7 = val_main_v32 (F := Ideal) x7 :=
  (Casts.col_eq _ _ Cert.ReferenceIdeal.Gen.bcast_S100000_S100000x1_0).trans rfl

/-- The norm column of the edges' targets is the reference's in-degree norm column. -/
theorem in_col : normCol (F := Ideal) x8 = val_main_v24 (F := Ideal) x8 :=
  (Casts.col_eq _ _ Cert.ReferenceIdeal.Gen.bcast_S100000_S100000x1_0).trans rfl

/-- The first layer's aggregated features. -/
theorem agg0 : edgeSum128 (F := Ideal) (scaled x0 x7) x7 x8 = val_main_v23 (F := Ideal) x0 x7 x8 := by
  unfold scaled
  rw [out_col]
  rfl

/-- The second layer's aggregated features, from the first layer's output. -/
theorem agg1 : edgeSum64 (F := Ideal) (val_main_v34 (F := Ideal) x0 x1 x2 x7 x8) x7 x8 = val_main_v44 (F := Ideal) x0 x1 x2 x7 x8 := rfl

/-- The third layer's aggregated features, from the second layer's output. -/
theorem agg2 : edgeSum64 (F := Ideal) (val_main_v55 (F := Ideal) x0 x1 x2 x3 x4 x7 x8) x7 x8 = val_main_v65 (F := Ideal) x0 x1 x2 x3 x4 x7 x8 := rfl

/-- The three bias rows. -/
theorem bias0 : biasRow64 (F := Ideal) x2 = val_main_v28 (F := Ideal) x2 :=
  (Casts.row64_eq _ _ Cert.ReferenceIdeal.Gen.bcast_S64_S1x64_1).trans rfl
theorem bias1 : biasRow64 (F := Ideal) x4 = val_main_v49 (F := Ideal) x4 :=
  (Casts.row64_eq _ _ Cert.ReferenceIdeal.Gen.bcast_S64_S1x64_1).trans rfl
theorem bias2 : biasRow16 (F := Ideal) x6 = val_main_v70 (F := Ideal) x6 :=
  (Casts.row16_eq _ _ Cert.ReferenceIdeal.Gen.bcast_S16_S1x16_1).trans rfl

end Cert.KernelIdeal.HostTermsRef

end
-- ==== Proof.Stretches.lean ====
/-
  The host operations before the first launch, one stretch at a time.

  Each stretch of host operations is read from any contents X of the buffers: what it leaves in the buffers later
  operations read (a degree count, its clamp, a norm column, the aggregated features, a bias row), as the named
  host-side values of what X holds in the buffers the stretch reads; and which buffers it leaves alone.
-/
import proofs.«151268_j66443144069641_1_alg».proof.Proof.Gen.KernelIdeal.Frame
import proofs.«151268_j66443144069641_1_alg».proof.Proof.HostTerms
import Idealize.ShloMosaic.Lib.StableHlo.Run
import Idealize.ShloMosaic.PureOps.Ideal

set_option maxRecDepth 16384

noncomputable section
namespace Cert.KernelIdeal.Stretches
open Cert.KernelIdeal Cert.KernelIdeal.Gen Cert.KernelIdeal.HostTerms
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first stretch: the ones, the zeros, the out-degree count -/

theorem s0_degree (X : Valuation τ sig (Elt Ideal)) (x7 : S1600000.Idx → BitVec 32) (h_x7 : X (Proc.devRef .tc main_arg7) = x7) :
    StableHlo.after hostOps0 X (Proc.devRef .tc main_v3) = degree (F := Ideal) x7 := by
  subst h_x7
  dsimp only [hostOps0]
  after_results <;> rfl
theorem s0_one (X : Valuation τ sig (Elt Ideal)) : StableHlo.after hostOps0 X (Proc.devRef .tc main_cst_1) = constant (F := Ideal) S_ .f32 0x3F800000#32 := by
  dsimp only [hostOps0]
  after_results <;> rfl
theorem s0_ones (X : Valuation τ sig (Elt Ideal)) : StableHlo.after hostOps0 X (Proc.devRef .tc main_v0)
    = broadcastInDim S1600000 ![] bcast_S_S1600000 (constant (F := Ideal) S_ .f32 0x3F800000#32) := by
  dsimp only [hostOps0]
  after_results <;> rfl
theorem s0_arg0 (X : Valuation τ sig (Elt Ideal)) : StableHlo.after hostOps0 X (Proc.devRef .tc main_arg0) = X (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_arg2 (X : Valuation τ sig (Elt Ideal)) : StableHlo.after hostOps0 X (Proc.devRef .tc main_arg2) = X (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_arg7 (X : Valuation τ sig (Elt Ideal)) : StableHlo.after hostOps0 X (Proc.devRef .tc main_arg7) = X (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_arg8 (X : Valuation τ sig (Elt Ideal)) : StableHlo.after hostOps0 X (Proc.devRef .tc main_arg8) = X (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The second stretch: the out-degree clamped below at one -/

theorem s1_clamp (X : Valuation τ sig (Elt Ideal)) (one : FVec Ideal S_ .f32) (deg : FVec Ideal S100000 .f32) (h_one : X (Proc.devRef .tc main_cst_1) = one) (h_deg : X (Proc.devRef .tc main_v3) = deg) :
    StableHlo.after hostOps0_1 X (Proc.devRef .tc main_v4)
      = maximumf (F := Ideal) (broadcastInDim S100000 ![] bcast_S_S100000 (id one)) deg := by
  subst h_one h_deg
  dsimp only [hostOps0_1]
  after_results <;> rfl
theorem s1_ones (X : Valuation τ sig (Elt Ideal)) : StableHlo.after hostOps0_1 X (Proc.devRef .tc main_v0) = X (Proc.devRef .tc main_v0) :=
  StableHlo.after_of_forall_not_mem (b := Proc.devRef .tc main_v0) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_arg0 (X : Valuation τ sig (Elt Ideal)) : StableHlo.after hostOps0_1 X (Proc.devRef .tc main_arg0) = X (Proc.devRef .tc main_arg0) :=
  StableHlo.after_of_forall_not_mem (b := Proc.devRef .tc main_arg0) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_arg2 (X : Valuation τ sig (Elt Ideal)) : StableHlo.after hostOps0_1 X (Proc.devRef .tc main_arg2) = X (Proc.devRef .tc main_arg2) :=
  StableHlo.after_of_forall_not_mem (b := Proc.devRef .tc main_arg2) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_arg7 (X : Valuation τ sig (Elt Ideal)) : StableHlo.after hostOps0_1 X (Proc.devRef .tc main_arg7) = X (Proc.devRef .tc main_arg7) :=
  StableHlo.after_of_forall_not_mem (b := Proc.devRef .tc main_arg7) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_arg8 (X : Valuation τ sig (Elt Ideal)) : StableHlo.after hostOps0_1 X (Proc.devRef .tc main_arg8) = X (Proc.devRef .tc main_arg8) :=
  StableHlo.after_of_forall_not_mem (b := Proc.devRef .tc main_arg8) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The third stretch: the in-degree count -/

theorem s2_degree (X : Valuation τ sig (Elt Ideal)) (x8 : S1600000.Idx → BitVec 32) (ones : FVec Ideal S1600000 .f32) (h_x8 : X (Proc.devRef .tc main_arg8) = x8) (h_ones : X (Proc.devRef .tc main_v0) = ones) :
    StableHlo.after hostOps0_2 X (Proc.devRef .tc main_v7)
      = Host.scatterAdd (F := Ideal) scatter_S100000_S1600000x1_S1600000_n_0_0_1
          (broadcastInDim S100000 ![] bcast_S_S100000 (constant S_ .f32 0x00000000#32))
          (broadcastInDim S1600000x1 ![0] bcast_S1600000_S1600000x1_0 x8) ones := by
  subst h_x8 h_ones
  dsimp only [hostOps0_2]
  after_results <;> rfl
theorem s2_one (X : Valuation τ sig (Elt Ideal)) : StableHlo.after hostOps0_2 X (Proc.devRef .tc main_cst_3) = constant (F := Ideal) S_ .f32 0x3F800000#32 := by
  dsimp only [hostOps0_2]
  after_results <;> rfl
theorem s2_clamp (X : Valuation τ sig (Elt Ideal)) : StableHlo.after hostOps0_2 X (Proc.devRef .tc main_v4) = X (Proc.devRef .tc main_v4) :=
  StableHlo.after_of_forall_not_mem (b := Proc.devRef .tc main_v4) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg0 (X : Valuation τ sig (Elt Ideal)) : StableHlo.after hostOps0_2 X (Proc.devRef .tc main_arg0) = X (Proc.devRef .tc main_arg0) :=
  StableHlo.after_of_forall_not_mem (b := Proc.devRef .tc main_arg0) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg2 (X : Valuation τ sig (Elt Ideal)) : StableHlo.after hostOps0_2 X (Proc.devRef .tc main_arg2) = X (Proc.devRef .tc main_arg2) :=
  StableHlo.after_of_forall_not_mem (b := Proc.devRef .tc main_arg2) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg7 (X : Valuation τ sig (Elt Ideal)) : StableHlo.after hostOps0_2 X (Proc.devRef .tc main_arg7) = X (Proc.devRef .tc main_arg7) :=
  StableHlo.after_of_forall_not_mem (b := Proc.devRef .tc main_arg7) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg8 (X : Valuation τ sig (Elt Ideal)) : StableHlo.after hostOps0_2 X (Proc.devRef .tc main_arg8) = X (Proc.devRef .tc main_arg8) :=
  StableHlo.after_of_forall_not_mem (b := Proc.devRef .tc main_arg8) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The fourth stretch: the in-degree clamped below at one -/

theorem s3_clamp (X : Valuation τ sig (Elt Ideal)) (one : FVec Ideal S_ .f32) (deg : FVec Ideal S100000 .f32) (h_one : X (Proc.devRef .tc main_cst_3) = one) (h_deg : X (Proc.devRef .tc main_v7) = deg) :
    StableHlo.after hostOps0_3 X (Proc.devRef .tc main_v8)
      = maximumf (F := Ideal) (broadcastInDim S100000 ![] bcast_S_S100000 (id one)) deg := by
  subst h_one h_deg
  dsimp only [hostOps0_3]
  after_results <;> rfl
theorem s3_clamp_out (X : Valuation τ sig (Elt Ideal)) : StableHlo.after hostOps0_3 X (Proc.devRef .tc main_v4) = X (Proc.devRef .tc main_v4) :=
  StableHlo.after_of_forall_not_mem (b := Proc.devRef .tc main_v4) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_arg0 (X : Valuation τ sig (Elt Ideal)) : StableHlo.after hostOps0_3 X (Proc.devRef .tc main_arg0) = X (Proc.devRef .tc main_arg0) :=
  StableHlo.after_of_forall_not_mem (b := Proc.devRef .tc main_arg0) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_arg2 (X : Valuation τ sig (Elt Ideal)) : StableHlo.after hostOps0_3 X (Proc.devRef .tc main_arg2) = X (Proc.devRef .tc main_arg2) :=
  StableHlo.after_of_forall_not_mem (b := Proc.devRef .tc main_arg2) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_arg7 (X : Valuation τ sig (Elt Ideal)) : StableHlo.after hostOps0_3 X (Proc.devRef .tc main_arg7) = X (Proc.devRef .tc main_arg7) :=
  StableHlo.after_of_forall_not_mem (b := Proc.devRef .tc main_arg7) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_arg8 (X : Valuation τ sig (Elt Ideal)) : StableHlo.after hostOps0_3 X (Proc.devRef .tc main_arg8) = X (Proc.devRef .tc main_arg8) :=
  StableHlo.after_of_forall_not_mem (b := Proc.devRef .tc main_arg8) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The fifth stretch: the norm columns, the scaled inputs' neighbourhood sums, the bias row -/

theorem s4_out_norm (X : Valuation τ sig (Elt Ideal)) (d : FVec Ideal S100000 .f32) (h_d : X (Proc.devRef .tc main_v4) = d) :
    StableHlo.after hostOps0_4 X (Proc.devRef .tc main_v10)
      = shapeCast S100000x1 (Host.rsqrt (F := Ideal) d) shapeCasts_S100000_S100000x1 := by
  subst h_d
  dsimp only [hostOps0_4]
  after_results <;> rfl
theorem s4_in_norm (X : Valuation τ sig (Elt Ideal)) (d : FVec Ideal S100000 .f32) (h_d : X (Proc.devRef .tc main_v8) = d) :
    StableHlo.after hostOps0_4 X (Proc.devRef .tc main_v12)
      = shapeCast S100000x1 (Host.rsqrt (F := Ideal) d) shapeCasts_S100000_S100000x1 := by
  subst h_d
  dsimp only [hostOps0_4]
  after_results <;> rfl
theorem s4_bias (X : Valuation τ sig (Elt Ideal)) (b : FVec Ideal S64 .f32) (h_b : X (Proc.devRef .tc main_arg2) = b) :
    StableHlo.after hostOps0_4 X (Proc.devRef .tc main_v25) = biasRow64 (F := Ideal) b := by
  subst h_b
  dsimp only [hostOps0_4]
  after_results <;> rfl
set_option maxHeartbeats 2000000 in
theorem s4_agg (X : Valuation τ sig (Elt Ideal)) (x0 : FVec Ideal S100000x128 .f32) (d : FVec Ideal S100000 .f32) (x7 x8 : S1600000.Idx → BitVec 32)
    (h_x0 : X (Proc.devRef .tc main_arg0) = x0) (h_d : X (Proc.devRef .tc main_v4) = d) (h_x7 : X (Proc.devRef .tc main_arg7) = x7) (h_x8 : X (Proc.devRef .tc main_arg8) = x8) :
    StableHlo.after hostOps0_4 X (Proc.devRef .tc main_v24)
      = edgeSum128 (F := Ideal) (mulf x0 (broadcastInDim S100000x128 ![0, 1] bcast_S100000x1_S100000x128_0_1
          (shapeCast S100000x1 (Host.rsqrt (F := Ideal) d) shapeCasts_S100000_S100000x1))) x7 x8 := by
  subst h_x0 h_d h_x7 h_x8
  dsimp only [hostOps0_4]
  after_results <;> rfl

end Cert.KernelIdeal.Stretches
end
-- ==== Proof.Boundary5.lean ====
/-
  What the first launch finds in its arrays.

  Walking the five stretches of host operations before the first launch from the launch memory: the out-degree
  count of the edges' sources and the in-degree count of their targets, each clamped below at one; their inverse
  square roots as columns; the inputs scaled by the out-degree norm, gathered along the sources and scatter-added
  to the targets; the first bias as a row.
-/
import proofs.«151268_j66443144069641_1_alg».proof.Proof.Gen.KernelIdeal.Frame
import proofs.«151268_j66443144069641_1_alg».proof.Proof.HostTerms
import proofs.«151268_j66443144069641_1_alg».proof.Proof.Stretches
import Idealize.ShloMosaic.Lib.StableHlo.Run
import Idealize.ShloMosaic.PureOps.Ideal

set_option maxRecDepth 16384

noncomputable section
namespace Cert.KernelIdeal.Boundary5
open Cert.KernelIdeal Cert.KernelIdeal.Gen Cert.KernelIdeal.HostTerms Cert.KernelIdeal.Stretches
open Idealize.ShloMosaic Idealize.ShloMosaic.TcCoe Idealize.SL.Sem Idealize.ShloMosaic.StableHlo

variable (m : (ℓ : Loc nD τ sig) → Buf (Elt Ideal) ℓ) (ρ : Dev nD → PrngReg)

/-- Argument 0 is still as launched after the fourth stretch. -/
theorem arg0_at4 (c : Dev nD) : W4 m ρ c (Proc.devRef .tc main_arg0) = (m ((c : Thread nD τ).loc main_arg0)) :=
  (s3_arg0 (W3 m ρ c)).trans ((s2_arg0 (W2 m ρ c)).trans ((s1_arg0 (W1 m ρ c)).trans ((s0_arg0 (W0 m ρ c)).trans rfl)))
/-- Argument 2 is still as launched after the fourth stretch. -/
theorem arg2_at4 (c : Dev nD) : W4 m ρ c (Proc.devRef .tc main_arg2) = (m ((c : Thread nD τ).loc main_arg2)) :=
  (s3_arg2 (W3 m ρ c)).trans ((s2_arg2 (W2 m ρ c)).trans ((s1_arg2 (W1 m ρ c)).trans ((s0_arg2 (W0 m ρ c)).trans rfl)))
/-- Argument 7 is still as launched after the fourth stretch. -/
theorem arg7_at4 (c : Dev nD) : W4 m ρ c (Proc.devRef .tc main_arg7) = (m ((c : Thread nD τ).loc main_arg7)) :=
  (s3_arg7 (W3 m ρ c)).trans ((s2_arg7 (W2 m ρ c)).trans ((s1_arg7 (W1 m ρ c)).trans ((s0_arg7 (W0 m ρ c)).trans rfl)))
/-- Argument 8 is still as launched after the fourth stretch. -/
theorem arg8_at4 (c : Dev nD) : W4 m ρ c (Proc.devRef .tc main_arg8) = (m ((c : Thread nD τ).loc main_arg8)) :=
  (s3_arg8 (W3 m ρ c)).trans ((s2_arg8 (W2 m ρ c)).trans ((s1_arg8 (W1 m ρ c)).trans ((s0_arg8 (W0 m ρ c)).trans rfl)))

/-- The out-degree, clamped below at one. -/
theorem clamp_out (c : Dev nD) : W4 m ρ c (Proc.devRef .tc main_v4)
    = maximumf (F := Ideal) (broadcastInDim S100000 ![] bcast_S_S100000 (id (constant S_ .f32 0x3F800000#32))) (degree (m ((c : Thread nD τ).loc main_arg7))) :=
  (s3_clamp_out (W3 m ρ c)).trans ((s2_clamp (W2 m ρ c)).trans
    (s1_clamp (W1 m ρ c) _ _ (s0_one (W0 m ρ c)) (s0_degree (W0 m ρ c) (m ((c : Thread nD τ).loc main_arg7)) rfl)))

/-- The in-degree, clamped below at one. -/
theorem clamp_in (c : Dev nD) : W4 m ρ c (Proc.devRef .tc main_v8)
    = maximumf (F := Ideal) (broadcastInDim S100000 ![] bcast_S_S100000 (id (constant S_ .f32 0x3F800000#32))) (degree (m ((c : Thread nD τ).loc main_arg8))) :=
  s3_clamp (W3 m ρ c) _ _ (s2_one (W2 m ρ c))
    (s2_degree (W2 m ρ c) (m ((c : Thread nD τ).loc main_arg8)) _ ((s1_arg8 (W1 m ρ c)).trans ((s0_arg8 (W0 m ρ c)).trans rfl))
      ((s1_ones (W1 m ρ c)).trans (s0_ones (W0 m ρ c))))

/-- The out-degree norm column. -/
theorem out_norm (c : Dev nD) : W5 m ρ c (Proc.devRef .tc main_v10) = normCol (F := Ideal) (m ((c : Thread nD τ).loc main_arg7)) :=
  s4_out_norm (W4 m ρ c) _ (clamp_out m ρ c)

/-- The in-degree norm column. -/
theorem in_norm (c : Dev nD) : W5 m ρ c (Proc.devRef .tc main_v12) = normCol (F := Ideal) (m ((c : Thread nD τ).loc main_arg8)) :=
  s4_in_norm (W4 m ρ c) _ (clamp_in m ρ c)

/-- The first bias row. -/
theorem bias (c : Dev nD) : W5 m ρ c (Proc.devRef .tc main_v25) = biasRow64 (F := Ideal) (m ((c : Thread nD τ).loc main_arg2)) :=
  s4_bias (W4 m ρ c) _ (arg2_at4 m ρ c)

/-- The first layer's aggregated features. -/
theorem agg (c : Dev nD) :
    W5 m ρ c (Proc.devRef .tc main_v24) = edgeSum128 (F := Ideal) (scaled (m ((c : Thread nD τ).loc main_arg0)) (m ((c : Thread nD τ).loc main_arg7))) (m ((c : Thread nD τ).loc main_arg7)) (m ((c : Thread nD τ).loc main_arg8)) :=
  s4_agg (W4 m ρ c) _ _ _ _ (arg0_at4 m ρ c) (clamp_out m ρ c) (arg7_at4 m ρ c) (arg8_at4 m ρ c)

end Cert.KernelIdeal.Boundary5
end
-- ==== Proof.Boundary5Args.lean ====
/-
  The argument arrays the launches and the later host operations read are still as launched when the first launch
  starts: no host operation before it writes an argument.
-/
import proofs.«151268_j66443144069641_1_alg».proof.Proof.Gen.KernelIdeal.Frame

import Idealize.ShloMosaic.Lib.StableHlo.Run
import Idealize.ShloMosaic.PureOps.Ideal

set_option maxRecDepth 16384

noncomputable section
namespace Cert.KernelIdeal.Boundary5Args
open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option Elab.async false

theorem arg1 (c : Dev nD) : W5 m ρ c (Proc.devRef .tc main_arg1) = (m ((c : Thread nD τ).loc main_arg1)) := by
  dsimp only [W5, W4, W3, W2, W1, W0, hostOps0, hostOps0_1, hostOps0_2, hostOps0_3, hostOps0_4]
  after_results

theorem arg3 (c : Dev nD) : W5 m ρ c (Proc.devRef .tc main_arg3) = (m ((c : Thread nD τ).loc main_arg3)) := by
  dsimp only [W5, W4, W3, W2, W1, W0, hostOps0, hostOps0_1, hostOps0_2, hostOps0_3, hostOps0_4]
  after_results

theorem arg4 (c : Dev nD) : W5 m ρ c (Proc.devRef .tc main_arg4) = (m ((c : Thread nD τ).loc main_arg4)) := by
  dsimp only [W5, W4, W3, W2, W1, W0, hostOps0, hostOps0_1, hostOps0_2, hostOps0_3, hostOps0_4]
  after_results

theorem arg5 (c : Dev nD) : W5 m ρ c (Proc.devRef .tc main_arg5) = (m ((c : Thread nD τ).loc main_arg5)) := by
  dsimp only [W5, W4, W3, W2, W1, W0, hostOps0, hostOps0_1, hostOps0_2, hostOps0_3, hostOps0_4]
  after_results

theorem arg6 (c : Dev nD) : W5 m ρ c (Proc.devRef .tc main_arg6) = (m ((c : Thread nD τ).loc main_arg6)) := by
  dsimp only [W5, W4, W3, W2, W1, W0, hostOps0, hostOps0_1, hostOps0_2, hostOps0_3, hostOps0_4]
  after_results

theorem arg7 (c : Dev nD) : W5 m ρ c (Proc.devRef .tc main_arg7) = (m ((c : Thread nD τ).loc main_arg7)) := by
  dsimp only [W5, W4, W3, W2, W1, W0, hostOps0, hostOps0_1, hostOps0_2, hostOps0_3, hostOps0_4]
  after_results

theorem arg8 (c : Dev nD) : W5 m ρ c (Proc.devRef .tc main_arg8) = (m ((c : Thread nD τ).loc main_arg8)) := by
  dsimp only [W5, W4, W3, W2, W1, W0, hostOps0, hostOps0_1, hostOps0_2, hostOps0_3, hostOps0_4]
  after_results

end Cert.KernelIdeal.Boundary5Args
end
-- ==== Proof.LayerSpec.lean ====
/-
  One dense layer of the graph network, entry by entry, on the extended reals.

  A layer takes the neighbourhood sums `agg` (one row per node), the two per-node normalisations as columns
  (`inn`: the inverse square root of the clamped in-degree; `outn`: of the clamped out-degree), a weight matrix
  and a bias row. Entry (r, q) of a hidden layer is

      max (Σₖ (agg[r,k] · inn[r]) · W[k,q] + b[q]) 0 · outn[r]

  and of the last layer the same without the clamp and without the out-degree factor. Both programs compute
  exactly these entries: the kernel one block of 2000 rows at a time, the reference over the whole array.
-/
import Idealize.ShloMosaic.PureOps.Ideal
import Idealize.ShloMosaic.Lib.ValueIdx

noncomputable section

namespace Cert.Layers

open Idealize.ShloMosaic Idealize.ShloMosaic.ValueIdx

/-- Entry (r, q) of a hidden layer: row r of the aggregated features, scaled by node r's in-degree norm, against
    column q of the weights; plus the bias; clamped below at zero; scaled by node r's out-degree norm (ready for the
    next layer's gather). -/
def hiddenAt {K N : Nat} (agg : (⟨2, ![100000, K]⟩ : Shape).Idx → EReal)
    (inn outn : (⟨2, ![100000, 1]⟩ : Shape).Idx → EReal)
    (W : (⟨2, ![K, N]⟩ : Shape).Idx → EReal) (b : (⟨2, ![1, N]⟩ : Shape).Idx → EReal)
    (r : Fin 100000) (q : Fin N) : EReal :=
  max ((∑ k : Fin K, (agg (ix2 r k) * inn (ix2 r 0)) * W (ix2 k q)) + b (ix2 0 q)) (Ideal.ofBits .f32 0x00000000#32)
    * outn (ix2 r 0)

/-- A hidden layer's whole output array. -/
def hidden {K N : Nat} (agg : (⟨2, ![100000, K]⟩ : Shape).Idx → EReal)
    (inn outn : (⟨2, ![100000, 1]⟩ : Shape).Idx → EReal)
    (W : (⟨2, ![K, N]⟩ : Shape).Idx → EReal) (b : (⟨2, ![1, N]⟩ : Shape).Idx → EReal) :
    (⟨2, ![100000, N]⟩ : Shape).Idx → EReal :=
  fun i => hiddenAt agg inn outn W b (i 0) (i 1)

/-- Entry (r, q) of the last layer: the same affine map, no clamp and no out-degree factor. -/
def logitAt {K N : Nat} (agg : (⟨2, ![100000, K]⟩ : Shape).Idx → EReal)
    (inn : (⟨2, ![100000, 1]⟩ : Shape).Idx → EReal)
    (W : (⟨2, ![K, N]⟩ : Shape).Idx → EReal) (b : (⟨2, ![1, N]⟩ : Shape).Idx → EReal)
    (r : Fin 100000) (q : Fin N) : EReal :=
  (∑ k : Fin K, (agg (ix2 r k) * inn (ix2 r 0)) * W (ix2 k q)) + b (ix2 0 q)

/-- The last layer's whole output array. -/
def logits {K N : Nat} (agg : (⟨2, ![100000, K]⟩ : Shape).Idx → EReal)
    (inn : (⟨2, ![100000, 1]⟩ : Shape).Idx → EReal)
    (W : (⟨2, ![K, N]⟩ : Shape).Idx → EReal) (b : (⟨2, ![1, N]⟩ : Shape).Idx → EReal) :
    (⟨2, ![100000, N]⟩ : Shape).Idx → EReal :=
  fun i => logitAt agg inn W b (i 0) (i 1)

end Cert.Layers

end
-- ==== Proof.LayerBody.lean ====
/-
  The dense-layer body's stored value, entry by entry.

  Each launch's body loads a block of 2000 aggregated rows, the matching 2000 entries of the two normalisation
  columns, the whole weight matrix and the bias row, and stores one block of 2000 output rows. On the extended
  reals the change of float format before the product is the identity and the product into a zero accumulator is
  the plain sum over the contracted axis, so entry (p, q) of the stored block is the layer's formula on row p of
  the loaded blocks.
-/
import proofs.«151268_j66443144069641_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section
namespace Cert.KernelIdeal.LayerBody
open Cert.KernelIdeal Cert.KernelIdeal.Gen Idealize.ShloMosaic Idealize.ShloMosaic.ValueIdx

/-- A column [2000, 1] spread along 128 lanes reads, at (p, k), the column's entry p. -/
theorem bcast_col128 (x : FVec Ideal S2000x1 .f32) (p : Fin 2000) (k : Fin 128) :
    broadcastTo S2000x128 x broadcasts_S2000x1_S2000x128 (ix2 p k) = x (ix2 p 0) :=
  broadcastTo_apply x broadcasts_S2000x1_S2000x128 (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])

/-- A column [2000, 1] spread along 64 lanes reads, at (p, k), the column's entry p. -/
theorem bcast_col64 (x : FVec Ideal S2000x1 .f32) (p : Fin 2000) (k : Fin 64) :
    broadcastTo S2000x64 x broadcasts_S2000x1_S2000x64 (ix2 p k) = x (ix2 p 0) :=
  broadcastTo_apply x broadcasts_S2000x1_S2000x64 (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])

/-- A row [1, 64] spread down 2000 rows reads, at (p, q), the row's entry q. -/
theorem bcast_row64 (x : FVec Ideal S1x64 .f32) (p : Fin 2000) (q : Fin 64) :
    broadcastTo S2000x64 x broadcasts_S1x64_S2000x64 (ix2 p q) = x (ix2 0 q) :=
  broadcastTo_apply x broadcasts_S1x64_S2000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A row [1, 16] spread down 2000 rows reads, at (p, q), the row's entry q. -/
theorem bcast_row16 (x : FVec Ideal S1x16 .f32) (p : Fin 2000) (q : Fin 16) :
    broadcastTo S2000x16 x broadcasts_S1x16_S2000x16 (ix2 p q) = x (ix2 0 q) :=
  broadcastTo_apply x broadcasts_S1x16_S2000x16 (ix2 p q) (ix2 0 q) (fun a => match a with
    | ⟨0, _⟩ => by show 0 = if (1 : Nat) = 1 then 0 else p.val; rw [if_pos rfl]
    | ⟨1, _⟩ => by show q.val = if (16 : Nat) = 1 then 0 else q.val; rw [if_neg (by decide)])

theorem lhs0_0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem rhs0_1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block product into a zero accumulator, entry (p, q): the sum over the contracted axis of row p of the
    left factor against column q of the right. -/
theorem matmul0_apply (l : FVec Ideal S2000x128 .bf16) (r : FVec Ideal S128x64 .bf16) (p : Fin 2000) (q : Fin 64) :
    matmul dot_S2000x128_S128x64_S2000x64_1_0_0_1_n_n none l r (constant S2000x64 .f32 0x00000000#32) (ix2 p q) = ∑ k : Fin 128, l (ix2 p k) * r (ix2 k q) := by
  show FloatOps.matmul dot_S2000x128_S128x64_S2000x64_1_0_0_1_n_n none l r (constant S2000x64 .f32 0x00000000#32) (ix2 p q) = _
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs0_0 _ _
    | ⟨1, _⟩ => exact (dot_S2000x128_S128x64_S2000x64_1_0_0_1_n_n.lhsIdx_val_of_single rfl _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (dot_S2000x128_S128x64_S2000x64_1_0_0_1_n_n.rhsIdx_val_of_single rfl _ _).trans hk
    | ⟨1, _⟩ => exact rhs0_1 _ _)
  rw [el, er]

theorem lhs1_0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem rhs1_1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator, entry (p, q): the sum over the contracted axis of row p of the
    left factor against column q of the right. -/
theorem matmul1_apply (l : FVec Ideal S2000x64 .bf16) (r : FVec Ideal S64x64 .bf16) (p : Fin 2000) (q : Fin 64) :
    matmul dot_S2000x64_S64x64_S2000x64_1_0_0_1_n_n none l r (constant S2000x64 .f32 0x00000000#32) (ix2 p q) = ∑ k : Fin 64, l (ix2 p k) * r (ix2 k q) := by
  show FloatOps.matmul dot_S2000x64_S64x64_S2000x64_1_0_0_1_n_n none l r (constant S2000x64 .f32 0x00000000#32) (ix2 p q) = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs1_0 _ _
    | ⟨1, _⟩ => exact (dot_S2000x64_S64x64_S2000x64_1_0_0_1_n_n.lhsIdx_val_of_single rfl _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (dot_S2000x64_S64x64_S2000x64_1_0_0_1_n_n.rhsIdx_val_of_single rfl _ _).trans hk
    | ⟨1, _⟩ => exact rhs1_1 _ _)
  rw [el, er]

theorem lhs2_0 (i : S2000x16.Idx) (q : dot_S2000x64_S64x16_S2000x16_1_0_0_1_n_n.contr.Idx) : (dot_S2000x64_S64x16_S2000x16_1_0_0_1_n_n.lhsIdx i q 0).val = (i 0).val := by
  unfold DotDims.lhsIdx
  rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
  rfl
theorem rhs2_1 (i : S2000x16.Idx) (q : dot_S2000x64_S64x16_S2000x16_1_0_0_1_n_n.contr.Idx) : (dot_S2000x64_S64x16_S2000x16_1_0_0_1_n_n.rhsIdx i q 1).val = (i 1).val := by
  unfold DotDims.rhsIdx
  rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
  rfl

/-- The block product into a zero accumulator, entry (p, q): the sum over the contracted axis of row p of the
    left factor against column q of the right. -/
theorem matmul2_apply (l : FVec Ideal S2000x64 .bf16) (r : FVec Ideal S64x16 .bf16) (p : Fin 2000) (q : Fin 16) :
    matmul dot_S2000x64_S64x16_S2000x16_1_0_0_1_n_n none l r (constant S2000x16 .f32 0x00000000#32) (ix2 p q) = ∑ k : Fin 64, l (ix2 p k) * r (ix2 k q) := by
  show FloatOps.matmul dot_S2000x64_S64x16_S2000x16_1_0_0_1_n_n none l r (constant S2000x16 .f32 0x00000000#32) (ix2 p q) = _
  rw [Ideal.matmul_constant_zero_apply, ← Equiv.sum_comp (contrEquiv1 dot_S2000x64_S64x16_S2000x16_1_0_0_1_n_n 64 rfl rfl).symm]
  refine Finset.sum_congr rfl fun k _ => ?_
  have hk := contrEquiv1_symm_val dot_S2000x64_S64x16_S2000x16_1_0_0_1_n_n 64 rfl rfl k
  have el : dot_S2000x64_S64x16_S2000x16_1_0_0_1_n_n.lhsIdx (ix2 p q) ((contrEquiv1 dot_S2000x64_S64x16_S2000x16_1_0_0_1_n_n 64 rfl rfl).symm k) = ix2 p k := funext fun a => Fin.ext (by
    match a with
    | ⟨0, _⟩ => exact lhs2_0 _ _
    | ⟨1, _⟩ => exact (dot_S2000x64_S64x16_S2000x16_1_0_0_1_n_n.lhsIdx_val_of_single rfl _ _).trans hk)
  have er : dot_S2000x64_S64x16_S2000x16_1_0_0_1_n_n.rhsIdx (ix2 p q) ((contrEquiv1 dot_S2000x64_S64x16_S2000x16_1_0_0_1_n_n 64 rfl rfl).symm k) = ix2 k q := funext fun a => Fin.ext (by
    match a with
    | ⟨0, _⟩ => exact (dot_S2000x64_S64x16_S2000x16_1_0_0_1_n_n.rhsIdx_val_of_single rfl _ _).trans hk
    | ⟨1, _⟩ => exact rhs2_1 _ _)
  rw [el, er]

/-- Entry (p, q) of launch 0's stored block: the hidden layer's formula on row p of the loaded blocks. -/
theorem pay0_apply (x0 : FVec Ideal S2000x128 .f32) (x1 : FVec Ideal S2000x1 .f32) (x3 : FVec Ideal S128x64 .f32)
    (x4 : FVec Ideal S1x64 .f32) (x2 : FVec Ideal S2000x1 .f32) (p : Fin 2000) (q : Fin 64) :
    k0_pay1 (F := Ideal) x0 x1 x3 x4 x2 (ix2 p q)
      = max ((∑ k : Fin 128, (x0 (ix2 p k) * x1 (ix2 p 0)) * x3 (ix2 k q)) + x4 (ix2 0 q)) (Ideal.ofBits .f32 0x00000000#32) * x2 (ix2 p 0) := by
  unfold k0_pay1
  simp only [shapeCast_self]
  show max (matmul dot_S2000x128_S128x64_S2000x64_1_0_0_1_n_n none _ _ (constant S2000x64 .f32 0x00000000#32) (ix2 p q) + broadcastTo S2000x64 x4 broadcasts_S1x64_S2000x64 (ix2 p q)) (Ideal.ofBits .f32 0x00000000#32) * broadcastTo S2000x64 x2 broadcasts_S2000x1_S2000x64 (ix2 p q) = _
  rw [matmul0_apply, bcast_row64, bcast_col64]
  refine congrArg (fun s => max (s + x4 (ix2 0 q)) (Ideal.ofBits .f32 0x00000000#32) * x2 (ix2 p 0)) ?_
  refine Finset.sum_congr rfl fun k _ => ?_
  show (x0 (ix2 p k) * broadcastTo S2000x128 x1 broadcasts_S2000x1_S2000x128 (ix2 p k)) * x3 (ix2 k q) = _
  rw [bcast_col128]

/-- Entry (p, q) of launch 1's stored block: the hidden layer's formula on row p of the loaded blocks. -/
theorem pay1_apply (x0 : FVec Ideal S2000x64 .f32) (x1 : FVec Ideal S2000x1 .f32) (x3 : FVec Ideal S64x64 .f32)
    (x4 : FVec Ideal S1x64 .f32) (x2 : FVec Ideal S2000x1 .f32) (p : Fin 2000) (q : Fin 64) :
    k1_pay1 (F := Ideal) x0 x1 x3 x4 x2 (ix2 p q)
      = max ((∑ k : Fin 64, (x0 (ix2 p k) * x1 (ix2 p 0)) * x3 (ix2 k q)) + x4 (ix2 0 q)) (Ideal.ofBits .f32 0x00000000#32) * x2 (ix2 p 0) := by
  unfold k1_pay1
  simp only [shapeCast_self]
  show max (matmul dot_S2000x64_S64x64_S2000x64_1_0_0_1_n_n none _ _ (constant S2000x64 .f32 0x00000000#32) (ix2 p q) + broadcastTo S2000x64 x4 broadcasts_S1x64_S2000x64 (ix2 p q)) (Ideal.ofBits .f32 0x00000000#32) * broadcastTo S2000x64 x2 broadcasts_S2000x1_S2000x64 (ix2 p q) = _
  rw [matmul1_apply, bcast_row64, bcast_col64]
  refine congrArg (fun s => max (s + x4 (ix2 0 q)) (Ideal.ofBits .f32 0x00000000#32) * x2 (ix2 p 0)) ?_
  refine Finset.sum_congr rfl fun k _ => ?_
  show (x0 (ix2 p k) * broadcastTo S2000x64 x1 broadcasts_S2000x1_S2000x64 (ix2 p k)) * x3 (ix2 k q) = _
  rw [bcast_col64]

/-- Entry (p, q) of the last launch's stored block: the affine map on row p of the loaded blocks. -/
theorem pay2_apply (x0 : FVec Ideal S2000x64 .f32) (x1 : FVec Ideal S2000x1 .f32) (x3 : FVec Ideal S64x16 .f32)
    (x4 : FVec Ideal S1x16 .f32) (p : Fin 2000) (q : Fin 16) :
    k2_pay1 (F := Ideal) x0 x1 x3 x4 (ix2 p q)
      = (∑ k : Fin 64, (x0 (ix2 p k) * x1 (ix2 p 0)) * x3 (ix2 k q)) + x4 (ix2 0 q) := by
  unfold k2_pay1
  simp only [shapeCast_self]
  show matmul dot_S2000x64_S64x16_S2000x16_1_0_0_1_n_n none _ _ (constant S2000x16 .f32 0x00000000#32) (ix2 p q) + broadcastTo S2000x16 x4 broadcasts_S1x16_S2000x16 (ix2 p q) = _
  rw [matmul2_apply, bcast_row16]
  refine congrArg (fun s => s + x4 (ix2 0 q)) ?_
  refine Finset.sum_congr rfl fun k _ => ?_
  show (x0 (ix2 p k) * broadcastTo S2000x64 x1 broadcasts_S2000x1_S2000x64 (ix2 p k)) * x3 (ix2 k q) = _
  rw [bcast_col64]

end Cert.KernelIdeal.LayerBody
end
-- ==== Proof.LayerRegion0.lean ====
/-
  Launch 0 of the dense-layer body, read as one whole-array function.

  The launch walks 50 blocks of 2000 rows. At block t the body sees rows 2000·t … 2000·t + 1999 of the aggregated
  features and of the two normalisation columns, and the whole weight matrix and bias row, and writes back rows
  2000·t … 2000·t + 1999 of the output. The 50 written blocks tile the output array, so after the launch the
  array holds the layer's formula of the arrays the launch found, whatever those are.
-/
import proofs.«151268_j66443144069641_1_alg».proof.Proof.Gen.KernelIdeal.Frame
import proofs.«151268_j66443144069641_1_alg».proof.Proof.LayerSpec
import proofs.«151268_j66443144069641_1_alg».proof.Proof.LayerBody

set_option maxRecDepth 16384

noncomputable section

namespace Cert.KernelIdeal.LayerRegion0

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the three row-blocked inputs and the output at block row t,
    the weights and the bias at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the aggregated features is rows 2000·t … of the array the launch found. -/
theorem rows_agg (c : Dev nD) (t : Fin cfg0.N) (y : S2000x128.Idx) (k : S100000x128.Idx)
    (h0 : (k 0).val = t.val * 2000 + (y 0).val) (h1 : (k 1).val = (y 1).val) :
    (iblk0 V c 0 t : FVec Ideal S2000x128 .f32) y = (V c main_v24 : S100000x128.Idx → EReal) k := by
  obtain ⟨e0, e1, -⟩ := block_index t
  unfold iblk0
  rw [View.read_apply]
  show V c main_v24 _ = V c main_v24 k
  congr 1
  funext a
  apply Fin.ext
  match a with
  | ⟨0, _⟩ => show win0_0.index t 0 * 2000 + 1 * (y 0).val = (k 0).val; rw [e0, h0]; omega
  | ⟨1, _⟩ => show win0_0.index t 1 * 128 + 1 * (y 1).val = (k 1).val; rw [e1, h1]; omega

/-- Block t of the in-degree column is entries 2000·t … of the column the launch found. -/
theorem rows_inn (c : Dev nD) (t : Fin cfg0.N) (y : S2000x1.Idx) (k : S100000x1.Idx)
    (h0 : (k 0).val = t.val * 2000 + (y 0).val) :
    (iblk0 V c 1 t : FVec Ideal S2000x1 .f32) y = (V c main_v12 : S100000x1.Idx → EReal) k := by
  obtain ⟨-, -, e0, e1, -⟩ := block_index t
  have hy : (y 1).val < 1 := (y 1).isLt
  have hk : (k 1).val < 1 := (k 1).isLt
  unfold iblk0
  rw [View.read_apply]
  show V c main_v12 _ = V c main_v12 k
  congr 1
  funext a
  apply Fin.ext
  match a with
  | ⟨0, _⟩ => show win0_1.index t 0 * 2000 + 1 * (y 0).val = (k 0).val; rw [e0, h0]; omega
  | ⟨1, _⟩ => show win0_1.index t 1 * 1 + 1 * (y 1).val = (k 1).val; rw [e1]; omega

/-- Block t of the out-degree column is entries 2000·t … of the column the launch found. -/
theorem rows_outn (c : Dev nD) (t : Fin cfg0.N) (y : S2000x1.Idx) (k : S100000x1.Idx)
    (h0 : (k 0).val = t.val * 2000 + (y 0).val) :
    (iblk0 V c 2 t : FVec Ideal S2000x1 .f32) y = (V c main_v10 : S100000x1.Idx → EReal) k := by
  obtain ⟨-, -, -, -, e0, e1, -⟩ := block_index t
  have hy : (y 1).val < 1 := (y 1).isLt
  have hk : (k 1).val < 1 := (k 1).isLt
  unfold iblk0
  rw [View.read_apply]
  show V c main_v10 _ = V c main_v10 k
  congr 1
  funext a
  apply Fin.ext
  match a with
  | ⟨0, _⟩ => show win0_2.index t 0 * 2000 + 1 * (y 0).val = (k 0).val; rw [e0, h0]; omega
  | ⟨1, _⟩ => show win0_2.index t 1 * 1 + 1 * (y 1).val = (k 1).val; rw [e1]; omega

/-- The weights' one block is the whole matrix. -/
theorem whole_w (c : Dev nD) (t : Fin cfg0.N) :
    (iblk0 V c 3 t : FVec Ideal S128x64 .f32) = (V c main_arg1 : S128x64.Idx → EReal) := by
  obtain ⟨-, -, -, -, -, -, e0, e1, -⟩ := block_index t
  funext y
  unfold iblk0
  rw [View.read_apply]
  show V c main_arg1 _ = V c main_arg1 y
  congr 1
  funext a
  apply Fin.ext
  match a with
  | ⟨0, _⟩ => show win0_3.index t 0 * 128 + 1 * (y 0).val = (y 0).val; rw [e0]; omega
  | ⟨1, _⟩ => show win0_3.index t 1 * 64 + 1 * (y 1).val = (y 1).val; rw [e1]; omega

/-- The bias row's one block is the whole row. -/
theorem whole_b (c : Dev nD) (t : Fin cfg0.N) :
    (iblk0 V c 4 t : FVec Ideal S1x64 .f32) = (V c main_v25 : S1x64.Idx → EReal) := by
  obtain ⟨-, -, -, -, -, -, -, -, e0, e1, -⟩ := block_index t
  funext y
  unfold iblk0
  rw [View.read_apply]
  show V c main_v25 _ = V c main_v25 y
  congr 1
  funext a
  apply Fin.ext
  match a with
  | ⟨0, _⟩ => show win0_4.index t 0 * 1 + 1 * (y 0).val = (y 0).val; rw [e0]; omega
  | ⟨1, _⟩ => show win0_4.index t 1 * 64 + 1 * (y 1).val = (y 1).val; rw [e1]; omega

/-- One entry of the stored block against the whole-array formula: if the loaded blocks are rows 2000·t … of the
    arrays, entry j of the stored block is the layer's entry at row 2000·t + j₀, column j₁. -/
theorem stored_entry (agg : S100000x128.Idx → EReal) (inn outn : S100000x1.Idx → EReal)
    (W : S128x64.Idx → EReal) (b : S1x64.Idx → EReal)
    (x0 : FVec Ideal S2000x128 .f32) (x1 x2 : FVec Ideal S2000x1 .f32) (x3 : FVec Ideal S128x64 .f32) (x4 : FVec Ideal S1x64 .f32) (t : Nat)
    (h0 : ∀ (y : S2000x128.Idx) (k : S100000x128.Idx), (k 0).val = t * 2000 + (y 0).val → (k 1).val = (y 1).val → x0 y = agg k)
    (h1 : ∀ (y : S2000x1.Idx) (k : S100000x1.Idx), (k 0).val = t * 2000 + (y 0).val → x1 y = inn k)
    (h2 : ∀ (y : S2000x1.Idx) (k : S100000x1.Idx), (k 0).val = t * 2000 + (y 0).val → x2 y = outn k)
    (h3 : x3 = W) (h4 : x4 = b)
    (j : S2000x64.Idx) (i : S100000x64.Idx) (hi0 : (i 0).val = t * 2000 + (j 0).val) (hi1 : (i 1).val = (j 1).val) :
    k0_pay1 (F := Ideal) x0 x1 x3 x4 x2 j = hidden agg inn outn W b i := by
  obtain ⟨p, q, rfl⟩ : ∃ (p : Fin 2000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hr : r.val = t * 2000 + p.val := hi0
  obtain rfl : q = q' := Fin.ext hi1.symm
  subst h3 h4
  rw [LayerBody.pay0_apply]
  show _ = hiddenAt agg inn outn x3 x4 r q
  unfold hiddenAt
  have e0 : ∀ k : Fin 128, x0 (ix2 p k) = agg (ix2 r k) := fun k => h0 (ix2 p k) (ix2 r k) hr rfl
  have e1 : x1 (ix2 p 0) = inn (ix2 r 0) := h1 (ix2 p 0) (ix2 r 0) hr
  have e2 : x2 (ix2 p 0) = outn (ix2 r 0) := h2 (ix2 p 0) (ix2 r 0) hr
  simp only [e0, e1, e2]

/-- What grid point t writes back is block t of the layer's formula of the arrays the launch found. -/
theorem written_block (c : Dev nD) (t : Fin cfg0.N) :
    (dat0 V c).flushed 5 t = ((cfg0.win 5).blk t).view.read (Elt Ideal)
      (hidden (V c main_v24) (V c main_v12) (V c main_v10) (V c main_arg1) (V c main_v25)) := by
  obtain ⟨-, -, -, -, -, -, -, -, -, -, e0, e1⟩ := block_index t
  show (cfg0.win 5).cut (grid0.coords t) ((dat0 V c).after 5 t) = _
  rw [after0_5]
  unfold out0_5
  rw [View.canon_unit_zero origin]
  simp only [View.ld_unit_zero (S := S2000x128) origin, View.ld_unit_zero (S := S2000x1) origin,
    View.ld_unit_zero (S := S128x64) origin, View.ld_unit_zero (S := S1x64) origin]
  funext j
  show k0_pay1 (F := Ideal) (iblk0 V c 0 t) (iblk0 V c 1 t) (iblk0 V c 3 t) (iblk0 V c 4 t) (iblk0 V c 2 t) j
    = hidden (V c main_v24) (V c main_v12) (V c main_v10) (V c main_arg1) (V c main_v25) (((cfg0.win 5).blk t).view.emb j)
  exact stored_entry (V c main_v24) (V c main_v12) (V c main_v10) (V c main_arg1) (V c main_v25)
    (iblk0 V c 0 t) (iblk0 V c 1 t) (iblk0 V c 2 t) (iblk0 V c 3 t) (iblk0 V c 4 t) t.val
    (rows_agg V c t) (rows_inn V c t) (rows_outn V c t) (whole_w V c t) (whole_b V c t)
    j (((cfg0.win 5).blk t).view.emb j)
    (by show win0_5.index t 0 * 2000 + 1 * (j 0).val = t.val * 2000 + (j 0).val; rw [e0]; omega)
    (by show win0_5.index t 1 * 64 + 1 * (j 1).val = (j 1).val; rw [e1]; omega)

/-- An index of the output array is in point t's block iff each coordinate is in the block's range on its axis. -/
theorem mem_block (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v26).slice (win0_5.rect t)).set ↔ _
  rw [View.set_slice_whole, Rect.mem_set_unit]
  exact Iff.rfl

/-- Every row of the output array lies in the block of the grid point ⌊row / 2000⌋. -/
theorem blocks_cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨-, -, -, -, -, -, -, -, -, -, e0, e1⟩ := block_index ⟨(i 0).val / 2000, ht⟩
  refine ⟨⟨(i 0).val / 2000, ht⟩, flush0_5 _, ?_⟩
  rw [mem_block]
  intro a
  match a with
  | ⟨0, _⟩ =>
    show win0_5.index ⟨(i 0).val / 2000, ht⟩ 0 * 2000 ≤ (i 0).val ∧ (i 0).val < win0_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ 1 * 64 ≤ (i 1).val ∧ (i 1).val < win0_5.index ⟨(i 0).val / 2000, ht⟩ 1 * 64 + 64
    rw [e1]; omega

/-- After the launch its output array holds the layer's formula of the arrays the launch found. -/
theorem output_eq (c : Dev nD) :
    (dat0 V c).arrAt 5 cfg0.N = hidden (V c main_v24) (V c main_v12) (V c main_v10) (V c main_arg1) (V c main_v25) :=
  (dat0 V c).arrAt_eq_of_cover 5 (hidden (V c main_v24) (V c main_v12) (V c main_v10) (V c main_arg1) (V c main_v25))
    (fun t _ => written_block V c t) blocks_cover

end Cert.KernelIdeal.LayerRegion0

end
-- ==== Proof.LayerRegion1.lean ====
/-
  Launch 1 of the dense-layer body, read as one whole-array function.

  The launch walks 50 blocks of 2000 rows. At block t the body sees rows 2000·t … 2000·t + 1999 of the aggregated
  features and of the two normalisation columns, and the whole weight matrix and bias row, and writes back rows
  2000·t … 2000·t + 1999 of the output. The 50 written blocks tile the output array, so after the launch the
  array holds the layer's formula of the arrays the launch found, whatever those are.
-/
import proofs.«151268_j66443144069641_1_alg».proof.Proof.Gen.KernelIdeal.Frame
import proofs.«151268_j66443144069641_1_alg».proof.Proof.LayerSpec
import proofs.«151268_j66443144069641_1_alg».proof.Proof.LayerBody

set_option maxRecDepth 16384

noncomputable section

namespace Cert.KernelIdeal.LayerRegion1

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the three row-blocked inputs and the output at block row t,
    the weights and the bias at their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the aggregated features is rows 2000·t … of the array the launch found. -/
theorem rows_agg (c : Dev nD) (t : Fin cfg1.N) (y : S2000x64.Idx) (k : S100000x64.Idx)
    (h0 : (k 0).val = t.val * 2000 + (y 0).val) (h1 : (k 1).val = (y 1).val) :
    (iblk1 V c 0 t : FVec Ideal S2000x64 .f32) y = (V c main_v36 : S100000x64.Idx → EReal) k := by
  obtain ⟨e0, e1, -⟩ := block_index t
  unfold iblk1
  rw [View.read_apply]
  show V c main_v36 _ = V c main_v36 k
  congr 1
  funext a
  apply Fin.ext
  match a with
  | ⟨0, _⟩ => show win1_0.index t 0 * 2000 + 1 * (y 0).val = (k 0).val; rw [e0, h0]; omega
  | ⟨1, _⟩ => show win1_0.index t 1 * 64 + 1 * (y 1).val = (k 1).val; rw [e1, h1]; omega

/-- Block t of the in-degree column is entries 2000·t … of the column the launch found. -/
theorem rows_inn (c : Dev nD) (t : Fin cfg1.N) (y : S2000x1.Idx) (k : S100000x1.Idx)
    (h0 : (k 0).val = t.val * 2000 + (y 0).val) :
    (iblk1 V c 1 t : FVec Ideal S2000x1 .f32) y = (V c main_v12 : S100000x1.Idx → EReal) k := by
  obtain ⟨-, -, e0, e1, -⟩ := block_index t
  have hy : (y 1).val < 1 := (y 1).isLt
  have hk : (k 1).val < 1 := (k 1).isLt
  unfold iblk1
  rw [View.read_apply]
  show V c main_v12 _ = V c main_v12 k
  congr 1
  funext a
  apply Fin.ext
  match a with
  | ⟨0, _⟩ => show win1_1.index t 0 * 2000 + 1 * (y 0).val = (k 0).val; rw [e0, h0]; omega
  | ⟨1, _⟩ => show win1_1.index t 1 * 1 + 1 * (y 1).val = (k 1).val; rw [e1]; omega

/-- Block t of the out-degree column is entries 2000·t … of the column the launch found. -/
theorem rows_outn (c : Dev nD) (t : Fin cfg1.N) (y : S2000x1.Idx) (k : S100000x1.Idx)
    (h0 : (k 0).val = t.val * 2000 + (y 0).val) :
    (iblk1 V c 2 t : FVec Ideal S2000x1 .f32) y = (V c main_v10 : S100000x1.Idx → EReal) k := by
  obtain ⟨-, -, -, -, e0, e1, -⟩ := block_index t
  have hy : (y 1).val < 1 := (y 1).isLt
  have hk : (k 1).val < 1 := (k 1).isLt
  unfold iblk1
  rw [View.read_apply]
  show V c main_v10 _ = V c main_v10 k
  congr 1
  funext a
  apply Fin.ext
  match a with
  | ⟨0, _⟩ => show win1_2.index t 0 * 2000 + 1 * (y 0).val = (k 0).val; rw [e0, h0]; omega
  | ⟨1, _⟩ => show win1_2.index t 1 * 1 + 1 * (y 1).val = (k 1).val; rw [e1]; omega

/-- The weights' one block is the whole matrix. -/
theorem whole_w (c : Dev nD) (t : Fin cfg1.N) :
    (iblk1 V c 3 t : FVec Ideal S64x64 .f32) = (V c main_arg3 : S64x64.Idx → EReal) := by
  obtain ⟨-, -, -, -, -, -, e0, e1, -⟩ := block_index t
  funext y
  unfold iblk1
  rw [View.read_apply]
  show V c main_arg3 _ = V c main_arg3 y
  congr 1
  funext a
  apply Fin.ext
  match a with
  | ⟨0, _⟩ => show win1_3.index t 0 * 64 + 1 * (y 0).val = (y 0).val; rw [e0]; omega
  | ⟨1, _⟩ => show win1_3.index t 1 * 64 + 1 * (y 1).val = (y 1).val; rw [e1]; omega

/-- The bias row's one block is the whole row. -/
theorem whole_b (c : Dev nD) (t : Fin cfg1.N) :
    (iblk1 V c 4 t : FVec Ideal S1x64 .f32) = (V c main_v37 : S1x64.Idx → EReal) := by
  obtain ⟨-, -, -, -, -, -, -, -, e0, e1, -⟩ := block_index t
  funext y
  unfold iblk1
  rw [View.read_apply]
  show V c main_v37 _ = V c main_v37 y
  congr 1
  funext a
  apply Fin.ext
  match a with
  | ⟨0, _⟩ => show win1_4.index t 0 * 1 + 1 * (y 0).val = (y 0).val; rw [e0]; omega
  | ⟨1, _⟩ => show win1_4.index t 1 * 64 + 1 * (y 1).val = (y 1).val; rw [e1]; omega

/-- One entry of the stored block against the whole-array formula: if the loaded blocks are rows 2000·t … of the
    arrays, entry j of the stored block is the layer's entry at row 2000·t + j₀, column j₁. -/
theorem stored_entry (agg : S100000x64.Idx → EReal) (inn outn : S100000x1.Idx → EReal)
    (W : S64x64.Idx → EReal) (b : S1x64.Idx → EReal)
    (x0 : FVec Ideal S2000x64 .f32) (x1 x2 : FVec Ideal S2000x1 .f32) (x3 : FVec Ideal S64x64 .f32) (x4 : FVec Ideal S1x64 .f32) (t : Nat)
    (h0 : ∀ (y : S2000x64.Idx) (k : S100000x64.Idx), (k 0).val = t * 2000 + (y 0).val → (k 1).val = (y 1).val → x0 y = agg k)
    (h1 : ∀ (y : S2000x1.Idx) (k : S100000x1.Idx), (k 0).val = t * 2000 + (y 0).val → x1 y = inn k)
    (h2 : ∀ (y : S2000x1.Idx) (k : S100000x1.Idx), (k 0).val = t * 2000 + (y 0).val → x2 y = outn k)
    (h3 : x3 = W) (h4 : x4 = b)
    (j : S2000x64.Idx) (i : S100000x64.Idx) (hi0 : (i 0).val = t * 2000 + (j 0).val) (hi1 : (i 1).val = (j 1).val) :
    k1_pay1 (F := Ideal) x0 x1 x3 x4 x2 j = hidden agg inn outn W b i := by
  obtain ⟨p, q, rfl⟩ : ∃ (p : Fin 2000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hr : r.val = t * 2000 + p.val := hi0
  obtain rfl : q = q' := Fin.ext hi1.symm
  subst h3 h4
  rw [LayerBody.pay1_apply]
  show _ = hiddenAt agg inn outn x3 x4 r q
  unfold hiddenAt
  have e0 : ∀ k : Fin 64, x0 (ix2 p k) = agg (ix2 r k) := fun k => h0 (ix2 p k) (ix2 r k) hr rfl
  have e1 : x1 (ix2 p 0) = inn (ix2 r 0) := h1 (ix2 p 0) (ix2 r 0) hr
  have e2 : x2 (ix2 p 0) = outn (ix2 r 0) := h2 (ix2 p 0) (ix2 r 0) hr
  simp only [e0, e1, e2]

/-- What grid point t writes back is block t of the layer's formula of the arrays the launch found. -/
theorem written_block (c : Dev nD) (t : Fin cfg1.N) :
    (dat1 V c).flushed 5 t = ((cfg1.win 5).blk t).view.read (Elt Ideal)
      (hidden (V c main_v36) (V c main_v12) (V c main_v10) (V c main_arg3) (V c main_v37)) := by
  obtain ⟨-, -, -, -, -, -, -, -, -, -, e0, e1⟩ := block_index t
  show (cfg1.win 5).cut (grid1.coords t) ((dat1 V c).after 5 t) = _
  rw [after1_5]
  unfold out1_5
  rw [View.canon_unit_zero origin]
  simp only [View.ld_unit_zero (S := S2000x64) origin, View.ld_unit_zero (S := S2000x1) origin,
    View.ld_unit_zero (S := S64x64) origin, View.ld_unit_zero (S := S1x64) origin]
  funext j
  show k1_pay1 (F := Ideal) (iblk1 V c 0 t) (iblk1 V c 1 t) (iblk1 V c 3 t) (iblk1 V c 4 t) (iblk1 V c 2 t) j
    = hidden (V c main_v36) (V c main_v12) (V c main_v10) (V c main_arg3) (V c main_v37) (((cfg1.win 5).blk t).view.emb j)
  exact stored_entry (V c main_v36) (V c main_v12) (V c main_v10) (V c main_arg3) (V c main_v37)
    (iblk1 V c 0 t) (iblk1 V c 1 t) (iblk1 V c 2 t) (iblk1 V c 3 t) (iblk1 V c 4 t) t.val
    (rows_agg V c t) (rows_inn V c t) (rows_outn V c t) (whole_w V c t) (whole_b V c t)
    j (((cfg1.win 5).blk t).view.emb j)
    (by show win1_5.index t 0 * 2000 + 1 * (j 0).val = t.val * 2000 + (j 0).val; rw [e0]; omega)
    (by show win1_5.index t 1 * 64 + 1 * (j 1).val = (j 1).val; rw [e1]; omega)

/-- An index of the output array is in point t's block iff each coordinate is in the block's range on its axis. -/
theorem mem_block (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v38).slice (win1_5.rect t)).set ↔ _
  rw [View.set_slice_whole, Rect.mem_set_unit]
  exact Iff.rfl

/-- Every row of the output array lies in the block of the grid point ⌊row / 2000⌋. -/
theorem blocks_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  have ht : (i 0).val / 2000 < cfg1.N := by rw [hN]; omega
  obtain ⟨-, -, -, -, -, -, -, -, -, -, e0, e1⟩ := block_index ⟨(i 0).val / 2000, ht⟩
  refine ⟨⟨(i 0).val / 2000, ht⟩, flush1_5 _, ?_⟩
  rw [mem_block]
  intro a
  match a with
  | ⟨0, _⟩ =>
    show win1_5.index ⟨(i 0).val / 2000, ht⟩ 0 * 2000 ≤ (i 0).val ∧ (i 0).val < win1_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ 1 * 64 ≤ (i 1).val ∧ (i 1).val < win1_5.index ⟨(i 0).val / 2000, ht⟩ 1 * 64 + 64
    rw [e1]; omega

/-- After the launch its output array holds the layer's formula of the arrays the launch found. -/
theorem output_eq (c : Dev nD) :
    (dat1 V c).arrAt 5 cfg1.N = hidden (V c main_v36) (V c main_v12) (V c main_v10) (V c main_arg3) (V c main_v37) :=
  (dat1 V c).arrAt_eq_of_cover 5 (hidden (V c main_v36) (V c main_v12) (V c main_v10) (V c main_arg3) (V c main_v37))
    (fun t _ => written_block V c t) blocks_cover

end Cert.KernelIdeal.LayerRegion1

end
-- ==== Proof.LayerRegion2.lean ====
/-
  Launch 2 of the dense-layer body, read as one whole-array function.

  The launch walks 50 blocks of 2000 rows. At block t the body sees rows 2000·t … 2000·t + 1999 of the aggregated
  features and of the two normalisation columns, and the whole weight matrix and bias row, and writes back rows
  2000·t … 2000·t + 1999 of the output. The 50 written blocks tile the output array, so after the launch the
  array holds the layer's formula of the arrays the launch found, whatever those are.
-/
import proofs.«151268_j66443144069641_1_alg».proof.Proof.Gen.KernelIdeal.Frame
import proofs.«151268_j66443144069641_1_alg».proof.Proof.LayerSpec
import proofs.«151268_j66443144069641_1_alg».proof.Proof.LayerBody

set_option maxRecDepth 16384

noncomputable section

namespace Cert.KernelIdeal.LayerRegion2

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the three row-blocked inputs and the output at block row t,
    the weights and the bias at their one block. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of the aggregated features is rows 2000·t … of the array the launch found. -/
theorem rows_agg (c : Dev nD) (t : Fin cfg2.N) (y : S2000x64.Idx) (k : S100000x64.Idx)
    (h0 : (k 0).val = t.val * 2000 + (y 0).val) (h1 : (k 1).val = (y 1).val) :
    (iblk2 V c 0 t : FVec Ideal S2000x64 .f32) y = (V c main_v48 : S100000x64.Idx → EReal) k := by
  obtain ⟨e0, e1, -⟩ := block_index t
  unfold iblk2
  rw [View.read_apply]
  show V c main_v48 _ = V c main_v48 k
  congr 1
  funext a
  apply Fin.ext
  match a with
  | ⟨0, _⟩ => show win2_0.index t 0 * 2000 + 1 * (y 0).val = (k 0).val; rw [e0, h0]; omega
  | ⟨1, _⟩ => show win2_0.index t 1 * 64 + 1 * (y 1).val = (k 1).val; rw [e1, h1]; omega

/-- Block t of the in-degree column is entries 2000·t … of the column the launch found. -/
theorem rows_inn (c : Dev nD) (t : Fin cfg2.N) (y : S2000x1.Idx) (k : S100000x1.Idx)
    (h0 : (k 0).val = t.val * 2000 + (y 0).val) :
    (iblk2 V c 1 t : FVec Ideal S2000x1 .f32) y = (V c main_v12 : S100000x1.Idx → EReal) k := by
  obtain ⟨-, -, e0, e1, -⟩ := block_index t
  have hy : (y 1).val < 1 := (y 1).isLt
  have hk : (k 1).val < 1 := (k 1).isLt
  unfold iblk2
  rw [View.read_apply]
  show V c main_v12 _ = V c main_v12 k
  congr 1
  funext a
  apply Fin.ext
  match a with
  | ⟨0, _⟩ => show win2_1.index t 0 * 2000 + 1 * (y 0).val = (k 0).val; rw [e0, h0]; omega
  | ⟨1, _⟩ => show win2_1.index t 1 * 1 + 1 * (y 1).val = (k 1).val; rw [e1]; omega

/-- Block t of the out-degree column is entries 2000·t … of the column the launch found. -/
theorem rows_outn (c : Dev nD) (t : Fin cfg2.N) (y : S2000x1.Idx) (k : S100000x1.Idx)
    (h0 : (k 0).val = t.val * 2000 + (y 0).val) :
    (iblk2 V c 2 t : FVec Ideal S2000x1 .f32) y = (V c main_v10 : S100000x1.Idx → EReal) k := by
  obtain ⟨-, -, -, -, e0, e1, -⟩ := block_index t
  have hy : (y 1).val < 1 := (y 1).isLt
  have hk : (k 1).val < 1 := (k 1).isLt
  unfold iblk2
  rw [View.read_apply]
  show V c main_v10 _ = V c main_v10 k
  congr 1
  funext a
  apply Fin.ext
  match a with
  | ⟨0, _⟩ => show win2_2.index t 0 * 2000 + 1 * (y 0).val = (k 0).val; rw [e0, h0]; omega
  | ⟨1, _⟩ => show win2_2.index t 1 * 1 + 1 * (y 1).val = (k 1).val; rw [e1]; omega

/-- The weights' one block is the whole matrix. -/
theorem whole_w (c : Dev nD) (t : Fin cfg2.N) :
    (iblk2 V c 3 t : FVec Ideal S64x16 .f32) = (V c main_arg5 : S64x16.Idx → EReal) := by
  obtain ⟨-, -, -, -, -, -, e0, e1, -⟩ := block_index t
  funext y
  unfold iblk2
  rw [View.read_apply]
  show V c main_arg5 _ = V c main_arg5 y
  congr 1
  funext a
  apply Fin.ext
  match a with
  | ⟨0, _⟩ => show win2_3.index t 0 * 64 + 1 * (y 0).val = (y 0).val; rw [e0]; omega
  | ⟨1, _⟩ => show win2_3.index t 1 * 16 + 1 * (y 1).val = (y 1).val; rw [e1]; omega

/-- The bias row's one block is the whole row. -/
theorem whole_b (c : Dev nD) (t : Fin cfg2.N) :
    (iblk2 V c 4 t : FVec Ideal S1x16 .f32) = (V c main_v49 : S1x16.Idx → EReal) := by
  obtain ⟨-, -, -, -, -, -, -, -, e0, e1, -⟩ := block_index t
  funext y
  unfold iblk2
  rw [View.read_apply]
  show V c main_v49 _ = V c main_v49 y
  congr 1
  funext a
  apply Fin.ext
  match a with
  | ⟨0, _⟩ => show win2_4.index t 0 * 1 + 1 * (y 0).val = (y 0).val; rw [e0]; omega
  | ⟨1, _⟩ => show win2_4.index t 1 * 16 + 1 * (y 1).val = (y 1).val; rw [e1]; omega

/-- One entry of the stored block against the whole-array formula: if the loaded blocks are rows 2000·t … of the
    arrays, entry j of the stored block is the layer's entry at row 2000·t + j₀, column j₁. -/
theorem stored_entry (agg : S100000x64.Idx → EReal) (inn outn : S100000x1.Idx → EReal)
    (W : S64x16.Idx → EReal) (b : S1x16.Idx → EReal)
    (x0 : FVec Ideal S2000x64 .f32) (x1 x2 : FVec Ideal S2000x1 .f32) (x3 : FVec Ideal S64x16 .f32) (x4 : FVec Ideal S1x16 .f32) (t : Nat)
    (h0 : ∀ (y : S2000x64.Idx) (k : S100000x64.Idx), (k 0).val = t * 2000 + (y 0).val → (k 1).val = (y 1).val → x0 y = agg k)
    (h1 : ∀ (y : S2000x1.Idx) (k : S100000x1.Idx), (k 0).val = t * 2000 + (y 0).val → x1 y = inn k)
    (h2 : ∀ (y : S2000x1.Idx) (k : S100000x1.Idx), (k 0).val = t * 2000 + (y 0).val → x2 y = outn k)
    (h3 : x3 = W) (h4 : x4 = b)
    (j : S2000x16.Idx) (i : S100000x16.Idx) (hi0 : (i 0).val = t * 2000 + (j 0).val) (hi1 : (i 1).val = (j 1).val) :
    k2_pay1 (F := Ideal) x0 x1 x3 x4 j = logits agg inn W b i := by
  obtain ⟨p, q, rfl⟩ : ∃ (p : Fin 2000) (q : Fin 16), j = ix2 p q := ⟨j 0, j 1, eq_ix2 j⟩
  obtain ⟨r, q', rfl⟩ : ∃ (r : Fin 100000) (q' : Fin 16), i = ix2 r q' := ⟨i 0, i 1, eq_ix2 i⟩
  have hr : r.val = t * 2000 + p.val := hi0
  obtain rfl : q = q' := Fin.ext hi1.symm
  subst h3 h4
  rw [LayerBody.pay2_apply]
  show _ = logitAt agg inn x3 x4 r q
  unfold logitAt
  have e0 : ∀ k : Fin 64, x0 (ix2 p k) = agg (ix2 r k) := fun k => h0 (ix2 p k) (ix2 r k) hr rfl
  have e1 : x1 (ix2 p 0) = inn (ix2 r 0) := h1 (ix2 p 0) (ix2 r 0) hr

  simp only [e0, e1]

/-- What grid point t writes back is block t of the layer's formula of the arrays the launch found. -/
theorem written_block (c : Dev nD) (t : Fin cfg2.N) :
    (dat2 V c).flushed 5 t = ((cfg2.win 5).blk t).view.read (Elt Ideal)
      (logits (V c main_v48) (V c main_v12) (V c main_arg5) (V c main_v49)) := by
  obtain ⟨-, -, -, -, -, -, -, -, -, -, e0, e1⟩ := block_index t
  show (cfg2.win 5).cut (grid2.coords t) ((dat2 V c).after 5 t) = _
  rw [after2_5]
  unfold out2_5
  rw [View.canon_unit_zero origin]
  simp only [View.ld_unit_zero (S := S2000x64) origin, View.ld_unit_zero (S := S2000x1) origin,
    View.ld_unit_zero (S := S64x16) origin, View.ld_unit_zero (S := S1x16) origin]
  funext j
  show k2_pay1 (F := Ideal) (iblk2 V c 0 t) (iblk2 V c 1 t) (iblk2 V c 3 t) (iblk2 V c 4 t) j
    = logits (V c main_v48) (V c main_v12) (V c main_arg5) (V c main_v49) (((cfg2.win 5).blk t).view.emb j)
  exact stored_entry (V c main_v48) (V c main_v12) (V c main_v10) (V c main_arg5) (V c main_v49)
    (iblk2 V c 0 t) (iblk2 V c 1 t) (iblk2 V c 2 t) (iblk2 V c 3 t) (iblk2 V c 4 t) t.val
    (rows_agg V c t) (rows_inn V c t) (rows_outn V c t) (whole_w V c t) (whole_b V c t)
    j (((cfg2.win 5).blk t).view.emb j)
    (by show win2_5.index t 0 * 2000 + 1 * (j 0).val = t.val * 2000 + (j 0).val; rw [e0]; omega)
    (by show win2_5.index t 1 * 16 + 1 * (j 1).val = (j 1).val; rw [e1]; omega)

/-- An index of the output array is in point t's block iff each coordinate is in the block's range on its axis. -/
theorem mem_block (t : Fin cfg2.N) (i : S100000x16.Idx) :
    i ∈ ((cfg2.win 5).blk t).view.set ↔ ∀ a : Fin 2, win2_5.index t a * S2000x16.size a ≤ (i a).val ∧ (i a).val < win2_5.index t a * S2000x16.size a + S2000x16.size a := by
  show i ∈ ((View.whole main_v50).slice (win2_5.rect t)).set ↔ _
  rw [View.set_slice_whole, Rect.mem_set_unit]
  exact Iff.rfl

/-- Every row of the output array lies in the block of the grid point ⌊row / 2000⌋. -/
theorem blocks_cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : cfg2.N = 50 := N_2
  have ht : (i 0).val / 2000 < cfg2.N := by rw [hN]; omega
  obtain ⟨-, -, -, -, -, -, -, -, -, -, e0, e1⟩ := block_index ⟨(i 0).val / 2000, ht⟩
  refine ⟨⟨(i 0).val / 2000, ht⟩, flush2_5 _, ?_⟩
  rw [mem_block]
  intro a
  match a with
  | ⟨0, _⟩ =>
    show win2_5.index ⟨(i 0).val / 2000, ht⟩ 0 * 2000 ≤ (i 0).val ∧ (i 0).val < win2_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ 1 * 16 ≤ (i 1).val ∧ (i 1).val < win2_5.index ⟨(i 0).val / 2000, ht⟩ 1 * 16 + 16
    rw [e1]; omega

/-- After the launch its output array holds the layer's formula of the arrays the launch found. -/
theorem output_eq (c : Dev nD) :
    (dat2 V c).arrAt 5 cfg2.N = logits (V c main_v48) (V c main_v12) (V c main_arg5) (V c main_v49) :=
  (dat2 V c).arrAt_eq_of_cover 5 (logits (V c main_v48) (V c main_v12) (V c main_arg5) (V c main_v49))
    (fun t _ => written_block V c t) blocks_cover

end Cert.KernelIdeal.LayerRegion2

end
-- ==== Proof.RefLayers.lean ====
/-
  The reference's three layers, each as the layer's formula.

  Between its gathers and scatter-adds the reference computes, per layer, (agg · in-norm) W + b over whole arrays,
  then clamps at zero and scales by the out-degree norm before the next gather. Read at an entry, the
  host's product is the sum over the contracted axis and the broadcasts pick the row's norm and the column's bias:
  the layer's formula.
-/
import proofs.«151268_j66443144069641_1_alg».proof.Proof.Gen.ReferenceIdeal.Read
import proofs.«151268_j66443144069641_1_alg».proof.Proof.LayerSpec

noncomputable section

namespace Cert.ReferenceIdeal.Layers

open Cert.ReferenceIdeal Cert.ReferenceIdeal.Read Cert.Layers
open Idealize.ShloMosaic Idealize.ShloMosaic.ValueIdx

variable (x0 : S100000x128.Idx → EReal) (x1 : S128x64.Idx → EReal) (x2 : S64.Idx → EReal) (x3 : S64x64.Idx → EReal)
  (x4 : S64.Idx → EReal) (x5 : S64x16.Idx → EReal) (x6 : S16.Idx → EReal) (x7 x8 : S1600000.Idx → BitVec 32)

/-- The reference's layer 0 (scale by the in-degree norm, product with the weights, bias, clamp at zero, scale by
    the out-degree norm) is the layer's formula of its aggregated features, its two norm columns, the weights and
    the bias row. -/
theorem layer0 :
    val_main_v34 (F := Ideal) x0 x1 x2 x7 x8
      = hidden (val_main_v23 (F := Ideal) x0 x7 x8) (val_main_v24 (F := Ideal) x8) (val_main_v32 (F := Ideal) x7) x1 (val_main_v28 (F := Ideal) x2) := by
  funext i
  obtain ⟨r, q, rfl⟩ : ∃ (r : Fin 100000) (q : Fin 64), i = ix2 r q := ⟨i 0, i 1, eq_ix2 i⟩
  have a1 : ∀ k : Fin 128, lidx_main_v27 (ix2 r q) k = ix2 r k := fun k => funext fun a => Fin.ext (by
    match a with | ⟨0, _⟩ => rfl | ⟨1, _⟩ => rfl)
  have a2 : ∀ k : Fin 128, ridx_main_v27 (ix2 r q) k = ix2 k q := fun k => funext fun a => Fin.ext (by
    match a with | ⟨0, _⟩ => rfl | ⟨1, _⟩ => rfl)
  have a3 : ∀ k : Fin 128, idx_main_v25 (ix2 r k) = ix2 r 0 := fun k => funext fun a => Fin.ext (by
    match a with | ⟨0, _⟩ => rfl | ⟨1, _⟩ => rfl)
  have a4 : idx_main_v29 (ix2 r q) = ix2 0 q := funext fun a => Fin.ext (by
    match a with | ⟨0, _⟩ => rfl | ⟨1, _⟩ => rfl)
  have a5 : idx_main_v33 (ix2 r q) = ix2 r 0 := funext fun a => Fin.ext (by
    match a with | ⟨0, _⟩ => rfl | ⟨1, _⟩ => rfl)
  rw [val_main_v34_apply, val_main_v31_apply, val_main_v30_apply, val_main_v27_apply, val_main_v29_apply, val_main_v33_apply,
    val_main_call2_v0_apply, val_main_call2_cst_apply, a4, a5]
  show max ((∑ k : Fin 128, val_main_v26 (F := Ideal) x0 x7 x8 (lidx_main_v27 (ix2 r q) k) * x1 (ridx_main_v27 (ix2 r q) k))
        + val_main_v28 (F := Ideal) x2 (ix2 0 q)) (Ideal.ofBits .f32 0x00000000#32) * val_main_v32 (F := Ideal) x7 (ix2 r 0)
      = hiddenAt (val_main_v23 (F := Ideal) x0 x7 x8) (val_main_v24 (F := Ideal) x8) (val_main_v32 (F := Ideal) x7) x1 (val_main_v28 (F := Ideal) x2) r q
  unfold hiddenAt
  refine congrArg (fun s => max (s + val_main_v28 (F := Ideal) x2 (ix2 0 q)) (Ideal.ofBits .f32 0x00000000#32) * val_main_v32 (F := Ideal) x7 (ix2 r 0)) ?_
  refine Finset.sum_congr rfl fun k _ => ?_
  rw [a1 k, a2 k, val_main_v26_apply, val_main_v25_apply, a3 k]
  rfl

/-- The reference's layer 1 (scale by the in-degree norm, product with the weights, bias, clamp at zero, scale by
    the out-degree norm) is the layer's formula of its aggregated features, its two norm columns, the weights and
    the bias row. -/
theorem layer1 :
    val_main_v55 (F := Ideal) x0 x1 x2 x3 x4 x7 x8
      = hidden (val_main_v44 (F := Ideal) x0 x1 x2 x7 x8) (val_main_v45 (F := Ideal) x8) (val_main_v53 (F := Ideal) x7) x3 (val_main_v49 (F := Ideal) x4) := by
  funext i
  obtain ⟨r, q, rfl⟩ : ∃ (r : Fin 100000) (q : Fin 64), i = ix2 r q := ⟨i 0, i 1, eq_ix2 i⟩
  have a1 : ∀ k : Fin 64, lidx_main_v48 (ix2 r q) k = ix2 r k := fun k => funext fun a => Fin.ext (by
    match a with | ⟨0, _⟩ => rfl | ⟨1, _⟩ => rfl)
  have a2 : ∀ k : Fin 64, ridx_main_v48 (ix2 r q) k = ix2 k q := fun k => funext fun a => Fin.ext (by
    match a with | ⟨0, _⟩ => rfl | ⟨1, _⟩ => rfl)
  have a3 : ∀ k : Fin 64, idx_main_v46 (ix2 r k) = ix2 r 0 := fun k => funext fun a => Fin.ext (by
    match a with | ⟨0, _⟩ => rfl | ⟨1, _⟩ => rfl)
  have a4 : idx_main_v50 (ix2 r q) = ix2 0 q := funext fun a => Fin.ext (by
    match a with | ⟨0, _⟩ => rfl | ⟨1, _⟩ => rfl)
  have a5 : idx_main_v54 (ix2 r q) = ix2 r 0 := funext fun a => Fin.ext (by
    match a with | ⟨0, _⟩ => rfl | ⟨1, _⟩ => rfl)
  rw [val_main_v55_apply, val_main_v52_apply, val_main_v51_apply, val_main_v48_apply, val_main_v50_apply, val_main_v54_apply,
    val_main_call3_v0_apply, val_main_call3_cst_apply, a4, a5]
  show max ((∑ k : Fin 64, val_main_v47 (F := Ideal) x0 x1 x2 x7 x8 (lidx_main_v48 (ix2 r q) k) * x3 (ridx_main_v48 (ix2 r q) k))
        + val_main_v49 (F := Ideal) x4 (ix2 0 q)) (Ideal.ofBits .f32 0x00000000#32) * val_main_v53 (F := Ideal) x7 (ix2 r 0)
      = hiddenAt (val_main_v44 (F := Ideal) x0 x1 x2 x7 x8) (val_main_v45 (F := Ideal) x8) (val_main_v53 (F := Ideal) x7) x3 (val_main_v49 (F := Ideal) x4) r q
  unfold hiddenAt
  refine congrArg (fun s => max (s + val_main_v49 (F := Ideal) x4 (ix2 0 q)) (Ideal.ofBits .f32 0x00000000#32) * val_main_v53 (F := Ideal) x7 (ix2 r 0)) ?_
  refine Finset.sum_congr rfl fun k _ => ?_
  rw [a1 k, a2 k, val_main_v47_apply, val_main_v46_apply, a3 k]
  rfl

/-- The reference's last layer (scale by the in-degree norm, product with the weights, bias; no clamp, no
    out-degree factor) is the affine formula. -/
theorem layer2 :
    val_main_v72 (F := Ideal) x0 x1 x2 x3 x4 x5 x6 x7 x8
      = logits (val_main_v65 (F := Ideal) x0 x1 x2 x3 x4 x7 x8) (val_main_v66 (F := Ideal) x8) x5 (val_main_v70 (F := Ideal) x6) := by
  funext i
  obtain ⟨r, q, rfl⟩ : ∃ (r : Fin 100000) (q : Fin 16), i = ix2 r q := ⟨i 0, i 1, eq_ix2 i⟩
  have a1 : ∀ k : Fin 64, lidx_main_v69 (ix2 r q) k = ix2 r k := fun k => funext fun a => Fin.ext (by
    match a with | ⟨0, _⟩ => rfl | ⟨1, _⟩ => rfl)
  have a2 : ∀ k : Fin 64, ridx_main_v69 (ix2 r q) k = ix2 k q := fun k => funext fun a => Fin.ext (by
    match a with | ⟨0, _⟩ => rfl | ⟨1, _⟩ => rfl)
  have a3 : ∀ k : Fin 64, idx_main_v67 (ix2 r k) = ix2 r 0 := fun k => funext fun a => Fin.ext (by
    match a with | ⟨0, _⟩ => rfl | ⟨1, _⟩ => rfl)
  have a4 : idx_main_v71 (ix2 r q) = ix2 0 q := funext fun a => Fin.ext (by
    match a with | ⟨0, _⟩ => rfl | ⟨1, _⟩ => rfl)
  rw [val_main_v72_apply, val_main_v69_apply, val_main_v71_apply, a4]
  show (∑ k : Fin 64, val_main_v68 (F := Ideal) x0 x1 x2 x3 x4 x7 x8 (lidx_main_v69 (ix2 r q) k) * x5 (ridx_main_v69 (ix2 r q) k))
        + val_main_v70 (F := Ideal) x6 (ix2 0 q)
      = logitAt (val_main_v65 (F := Ideal) x0 x1 x2 x3 x4 x7 x8) (val_main_v66 (F := Ideal) x8) x5 (val_main_v70 (F := Ideal) x6) r q
  unfold logitAt
  refine congrArg (fun s => s + val_main_v70 (F := Ideal) x6 (ix2 0 q)) ?_
  refine Finset.sum_congr rfl fun k _ => ?_
  rw [a1 k, a2 k, val_main_v68_apply, val_main_v67_apply, a3 k]
  rfl

end Cert.ReferenceIdeal.Layers

end
-- ==== Proof.Chain.lean ====
/-
  The kernel's buffers, boundary by boundary, hold the reference's values.

  Both programs run the same host operations around the dense layers: the degree counts, their clamped inverse
  square roots, and per layer the gather along the edges' sources and the scatter-add to their targets. So every
  buffer the kernel's program passes from one launch to the next holds the value the reference names at the same
  place: the aggregated features, the two norm columns, the bias row. Each launch turns the aggregated features
  into the layer's formula (the launch read as a whole-array function), which is what the reference computes there.
  The walk ends at the result buffer holding the reference's result.
-/
import proofs.«151268_j66443144069641_1_alg».proof.Proof.Gen.KernelIdeal.Frame
import proofs.«151268_j66443144069641_1_alg».proof.Proof.Gen.ReferenceIdeal.Read
import proofs.«151268_j66443144069641_1_alg».proof.Proof.HostTerms
import proofs.«151268_j66443144069641_1_alg».proof.Proof.HostTermsRef
import proofs.«151268_j66443144069641_1_alg».proof.Proof.Boundary5
import proofs.«151268_j66443144069641_1_alg».proof.Proof.Boundary5Args
import proofs.«151268_j66443144069641_1_alg».proof.Proof.LayerRegion0
import proofs.«151268_j66443144069641_1_alg».proof.Proof.LayerRegion1
import proofs.«151268_j66443144069641_1_alg».proof.Proof.LayerRegion2
import proofs.«151268_j66443144069641_1_alg».proof.Proof.RefLayers
import Idealize.ShloMosaic.Lib.StableHlo.Run
import Idealize.ShloMosaic.PureOps.Ideal

set_option maxRecDepth 16384

noncomputable section
namespace Cert.KernelIdeal.Chain
open Cert.KernelIdeal Cert.KernelIdeal.Gen Cert.KernelIdeal.HostTerms Cert.ReferenceIdeal.Read Cert.Layers
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first launch -/

/-- The first launch's output array holds the reference's first hidden layer (already scaled for the next gather). -/
theorem hidden1 (c : Dev nD) :
    W6 m ρ c (Proc.devRef .tc main_v26) = val_main_v34 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (W6_arr m ρ c 5).trans ((LayerRegion0.output_eq (V5 m ρ) c).trans ?_)
  show hidden (K := 128) (N := 64) (W5 m ρ c (Proc.devRef .tc main_v24)) (W5 m ρ c (Proc.devRef .tc main_v12)) (W5 m ρ c (Proc.devRef .tc main_v10)) (W5 m ρ c (Proc.devRef .tc main_arg1)) (W5 m ρ c (Proc.devRef .tc main_v25)) = _
  rw [Boundary5.agg m ρ c, Boundary5.in_norm m ρ c, Boundary5.out_norm m ρ c, Boundary5Args.arg1 m ρ c, Boundary5.bias m ρ c,
    HostTermsRef.agg0 (m ((c : Thread nD τ).loc main_arg0)) (m ((c : Thread nD τ).loc main_arg7)) (m ((c : Thread nD τ).loc main_arg8)), HostTermsRef.in_col (m ((c : Thread nD τ).loc main_arg8)), HostTermsRef.out_col (m ((c : Thread nD τ).loc main_arg7)), HostTermsRef.bias0 (m ((c : Thread nD τ).loc main_arg2))]
  exact (Cert.ReferenceIdeal.Layers.layer0 _ _ _ _ _).symm

theorem in_norm6 (c : Dev nD) : W6 m ρ c (Proc.devRef .tc main_v12) = normCol (F := Ideal) (m ((c : Thread nD τ).loc main_arg8)) :=
  ((W6_arr m ρ c 1).trans (((dat0 (V5 m ρ) c).arrAt_in 1 rfl _).trans (A_eq0 (V5 m ρ) c 1))).trans (Boundary5.in_norm m ρ c)
theorem out_norm6 (c : Dev nD) : W6 m ρ c (Proc.devRef .tc main_v10) = normCol (F := Ideal) (m ((c : Thread nD τ).loc main_arg7)) :=
  ((W6_arr m ρ c 2).trans (((dat0 (V5 m ρ) c).arrAt_in 2 rfl _).trans (A_eq0 (V5 m ρ) c 2))).trans (Boundary5.out_norm m ρ c)
theorem arg3_6 (c : Dev nD) : W6 m ρ c (Proc.devRef .tc main_arg3) = (m ((c : Thread nD τ).loc main_arg3)) :=
  (W6_of_ne m ρ c main_arg3 (by decide)).trans (Boundary5Args.arg3 m ρ c)
theorem arg4_6 (c : Dev nD) : W6 m ρ c (Proc.devRef .tc main_arg4) = (m ((c : Thread nD τ).loc main_arg4)) :=
  (W6_of_ne m ρ c main_arg4 (by decide)).trans (Boundary5Args.arg4 m ρ c)
theorem arg5_6 (c : Dev nD) : W6 m ρ c (Proc.devRef .tc main_arg5) = (m ((c : Thread nD τ).loc main_arg5)) :=
  (W6_of_ne m ρ c main_arg5 (by decide)).trans (Boundary5Args.arg5 m ρ c)
theorem arg6_6 (c : Dev nD) : W6 m ρ c (Proc.devRef .tc main_arg6) = (m ((c : Thread nD τ).loc main_arg6)) :=
  (W6_of_ne m ρ c main_arg6 (by decide)).trans (Boundary5Args.arg6 m ρ c)
theorem arg7_6 (c : Dev nD) : W6 m ρ c (Proc.devRef .tc main_arg7) = (m ((c : Thread nD τ).loc main_arg7)) :=
  (W6_of_ne m ρ c main_arg7 (by decide)).trans (Boundary5Args.arg7 m ρ c)
theorem arg8_6 (c : Dev nD) : W6 m ρ c (Proc.devRef .tc main_arg8) = (m ((c : Thread nD τ).loc main_arg8)) :=
  (W6_of_ne m ρ c main_arg8 (by decide)).trans (Boundary5Args.arg8 m ρ c)

/-! ## Before the second launch -/

theorem agg7 (c : Dev nD) :
    W7 m ρ c (Proc.devRef .tc main_v36) = val_main_v44 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  have e : W7 m ρ c (Proc.devRef .tc main_v36) = edgeSum64 (F := Ideal) (W6 m ρ c (Proc.devRef .tc main_v26)) (W6 m ρ c (Proc.devRef .tc main_arg7)) (W6 m ρ c (Proc.devRef .tc main_arg8)) := by
    dsimp only [W7, hostOps1]
    after_results <;> rfl
  rw [e, hidden1 m ρ c, arg7_6 m ρ c, arg8_6 m ρ c]
  exact HostTermsRef.agg1 _ _ _ _ _

theorem bias7 (c : Dev nD) : W7 m ρ c (Proc.devRef .tc main_v37) = val_main_v49 (F := Ideal) (m ((c : Thread nD τ).loc main_arg4)) := by
  have e : W7 m ρ c (Proc.devRef .tc main_v37) = biasRow64 (F := Ideal) (W6 m ρ c (Proc.devRef .tc main_arg4)) := by
    dsimp only [W7, hostOps1]
    after_results <;> rfl
  rw [e, arg4_6 m ρ c]
  exact HostTermsRef.bias1 _

theorem in_norm7 (c : Dev nD) : W7 m ρ c (Proc.devRef .tc main_v12) = normCol (F := Ideal) (m ((c : Thread nD τ).loc main_arg8)) := by
  dsimp only [W7, hostOps1]
  after_results
  exact in_norm6 m ρ c
theorem out_norm7 (c : Dev nD) : W7 m ρ c (Proc.devRef .tc main_v10) = normCol (F := Ideal) (m ((c : Thread nD τ).loc main_arg7)) := by
  dsimp only [W7, hostOps1]
  after_results
  exact out_norm6 m ρ c
theorem arg3_7 (c : Dev nD) : W7 m ρ c (Proc.devRef .tc main_arg3) = (m ((c : Thread nD τ).loc main_arg3)) := by
  dsimp only [W7, hostOps1]
  after_results
  exact arg3_6 m ρ c
theorem arg5_7 (c : Dev nD) : W7 m ρ c (Proc.devRef .tc main_arg5) = (m ((c : Thread nD τ).loc main_arg5)) := by
  dsimp only [W7, hostOps1]
  after_results
  exact arg5_6 m ρ c
theorem arg6_7 (c : Dev nD) : W7 m ρ c (Proc.devRef .tc main_arg6) = (m ((c : Thread nD τ).loc main_arg6)) := by
  dsimp only [W7, hostOps1]
  after_results
  exact arg6_6 m ρ c
theorem arg7_7 (c : Dev nD) : W7 m ρ c (Proc.devRef .tc main_arg7) = (m ((c : Thread nD τ).loc main_arg7)) := by
  dsimp only [W7, hostOps1]
  after_results
  exact arg7_6 m ρ c
theorem arg8_7 (c : Dev nD) : W7 m ρ c (Proc.devRef .tc main_arg8) = (m ((c : Thread nD τ).loc main_arg8)) := by
  dsimp only [W7, hostOps1]
  after_results
  exact arg8_6 m ρ c

/-! ## After the second launch -/

/-- The second launch's output array holds the reference's second hidden layer. -/
theorem hidden2 (c : Dev nD) :
    W8 m ρ c (Proc.devRef .tc main_v38) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine (W8_arr m ρ c 5).trans ((LayerRegion1.output_eq (V7 m ρ) c).trans ?_)
  show hidden (K := 64) (N := 64) (W7 m ρ c (Proc.devRef .tc main_v36)) (W7 m ρ c (Proc.devRef .tc main_v12)) (W7 m ρ c (Proc.devRef .tc main_v10)) (W7 m ρ c (Proc.devRef .tc main_arg3)) (W7 m ρ c (Proc.devRef .tc main_v37)) = _
  rw [agg7 m ρ c, in_norm7 m ρ c, out_norm7 m ρ c, arg3_7 m ρ c, bias7 m ρ c,
    HostTermsRef.in_col (m ((c : Thread nD τ).loc main_arg8)), HostTermsRef.out_col (m ((c : Thread nD τ).loc main_arg7))]
  exact (Cert.ReferenceIdeal.Layers.layer1 _ _ _ _ _ _ _).symm

theorem in_norm8 (c : Dev nD) : W8 m ρ c (Proc.devRef .tc main_v12) = normCol (F := Ideal) (m ((c : Thread nD τ).loc main_arg8)) :=
  ((W8_arr m ρ c 1).trans (((dat1 (V7 m ρ) c).arrAt_in 1 rfl _).trans (A_eq1 (V7 m ρ) c 1))).trans (in_norm7 m ρ c)
theorem arg5_8 (c : Dev nD) : W8 m ρ c (Proc.devRef .tc main_arg5) = (m ((c : Thread nD τ).loc main_arg5)) :=
  (W8_of_ne m ρ c main_arg5 (by decide)).trans (arg5_7 m ρ c)
theorem arg6_8 (c : Dev nD) : W8 m ρ c (Proc.devRef .tc main_arg6) = (m ((c : Thread nD τ).loc main_arg6)) :=
  (W8_of_ne m ρ c main_arg6 (by decide)).trans (arg6_7 m ρ c)
theorem arg7_8 (c : Dev nD) : W8 m ρ c (Proc.devRef .tc main_arg7) = (m ((c : Thread nD τ).loc main_arg7)) :=
  (W8_of_ne m ρ c main_arg7 (by decide)).trans (arg7_7 m ρ c)
theorem arg8_8 (c : Dev nD) : W8 m ρ c (Proc.devRef .tc main_arg8) = (m ((c : Thread nD τ).loc main_arg8)) :=
  (W8_of_ne m ρ c main_arg8 (by decide)).trans (arg8_7 m ρ c)

/-! ## Before the third launch -/

theorem agg9 (c : Dev nD) :
    W9 m ρ c (Proc.devRef .tc main_v48) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  have e : ∀ (h : FVec Ideal S100000x64 .f32) (x7 x8 : S1600000.Idx → BitVec 32),
      W8 m ρ c (Proc.devRef .tc main_v38) = h → W8 m ρ c (Proc.devRef .tc main_arg7) = x7 → W8 m ρ c (Proc.devRef .tc main_arg8) = x8 →
      W9 m ρ c (Proc.devRef .tc main_v48) = edgeSum64 (F := Ideal) h x7 x8 := by
    intro h x7 x8 hh h7 h8
    subst hh h7 h8
    dsimp only [W9, hostOps2]
    after_results <;> rfl
  exact (e _ _ _ (hidden2 m ρ c) (arg7_8 m ρ c) (arg8_8 m ρ c)).trans (HostTermsRef.agg2 _ _ _ _ _ _ _)

theorem bias9 (c : Dev nD) : W9 m ρ c (Proc.devRef .tc main_v49) = val_main_v70 (F := Ideal) (m ((c : Thread nD τ).loc main_arg6)) := by
  have e : W9 m ρ c (Proc.devRef .tc main_v49) = biasRow16 (F := Ideal) (W8 m ρ c (Proc.devRef .tc main_arg6)) := by
    dsimp only [W9, hostOps2]
    after_results <;> rfl
  rw [e, arg6_8 m ρ c]
  exact HostTermsRef.bias2 _

theorem in_norm9 (c : Dev nD) : W9 m ρ c (Proc.devRef .tc main_v12) = normCol (F := Ideal) (m ((c : Thread nD τ).loc main_arg8)) := by
  dsimp only [W9, hostOps2]
  after_results
  exact in_norm8 m ρ c
theorem arg5_9 (c : Dev nD) : W9 m ρ c (Proc.devRef .tc main_arg5) = (m ((c : Thread nD τ).loc main_arg5)) := by
  dsimp only [W9, hostOps2]
  after_results
  exact arg5_8 m ρ c

/-! ## After the third launch: the result -/

/-- The kernel's result buffer ends holding the reference's result, as a function of the nine arguments. -/
theorem result (c : Dev nD) :
    W10 m ρ c (Proc.devRef .tc main_v50) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 5).trans ((LayerRegion2.output_eq (V9 m ρ) c).trans ?_)
  show logits (K := 64) (N := 16) (W9 m ρ c (Proc.devRef .tc main_v48)) (W9 m ρ c (Proc.devRef .tc main_v12)) (W9 m ρ c (Proc.devRef .tc main_arg5)) (W9 m ρ c (Proc.devRef .tc main_v49)) = _
  rw [agg9 m ρ c, in_norm9 m ρ c, arg5_9 m ρ c, bias9 m ρ c, HostTermsRef.in_col (m ((c : Thread nD τ).loc main_arg8))]
  exact (Cert.ReferenceIdeal.Layers.layer2 _ _ _ _ _ _ _ _ _).symm

end Cert.KernelIdeal.Chain
end
-- ==== Proof.lean ====
/-
  A three-layer graph convolution: the tiled dense layers against the whole-array reference.

  Both programs normalise by the clamped node degrees (out-degree before each gather, in-degree after each
  scatter-add), aggregate features along the edges, and apply per layer the affine map (agg · in-norm) W + b, with a
  clamp at zero and the out-degree scaling after the first two layers. The kernel program runs the affine map, the
  clamp and the scaling as one launch per layer over blocks of 2000 rows, feeding the product narrower floats; the
  reference runs them as whole-array host operations. On the extended reals the change of float format is the
  identity and the block product into a zero accumulator is the same sum over the contracted axis as the host's
  product, so each launch's output array is the reference's layer entry by entry, and since the host operations
  around the launches are the same in both programs, the two results are one function of the nine arguments. No
  algebraic law beyond reading both sides at an entry is needed, so the finiteness of the inputs is never used.
  The idealization rewrote nothing, so that claim is trivial; the three frames are the generated ones (the
  reference's is its run with the result dropped).
-/
import proofs.«151268_j66443144069641_1_alg».proof.Defs
import proofs.«151268_j66443144069641_1_alg».proof.Proof.Gen.Kernel
import proofs.«151268_j66443144069641_1_alg».proof.Proof.Gen.Kernel.Frame
import proofs.«151268_j66443144069641_1_alg».proof.Proof.Gen.KernelIdeal
import proofs.«151268_j66443144069641_1_alg».proof.Proof.Gen.KernelIdeal.Frame
import proofs.«151268_j66443144069641_1_alg».proof.Proof.Gen.ReferenceIdeal
import proofs.«151268_j66443144069641_1_alg».proof.Proof.Gen.Pre_finite_inputs
import proofs.«151268_j66443144069641_1_alg».proof.Proof.Gen.ReferenceIdeal.Run
import proofs.«151268_j66443144069641_1_alg».proof.Proof.Gen.ReferenceIdeal.Read
import proofs.«151268_j66443144069641_1_alg».proof.Proof.KernelRun
import proofs.«151268_j66443144069641_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the reference's result term of those
    arguments: the kernel's run ends at the last boundary's contents, which the walk through the boundaries shows to be
    that term; the reference's run ends at it by its own read-back. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Chain.result m ρ c), (h c).2⟩)
    (Cert.KernelIdeal.LayerRun.run_result m ρ), ?_⟩
  refine (θ_run Cert.ReferenceIdeal.defs _ _).mono (fun r h c => ⟨?_, (h c).2⟩)
    (Cert.ReferenceIdeal.Value.run (F := Ideal) m' ρ')
  obtain ⟨e0, e1, e2, e3, e4, e5, e6, e7, e8⟩ := hagree c
  rw [(h c).1, Cert.ReferenceIdeal.Read.val_main_v72_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
